-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x768 : Shape := ⟨3, ![128, 128, 768]⟩
abbrev S128x768 : Shape := ⟨2, ![128, 768]⟩
abbrev S1024x2x768 : Shape := ⟨3, ![1024, 2, 768]⟩
abbrev S1024 : Shape := ⟨1, ![1024]⟩
abbrev S1024x3x768 : Shape := ⟨3, ![1024, 3, 768]⟩
abbrev S1024x4x768 : Shape := ⟨3, ![1024, 4, 768]⟩
abbrev S1024x768 : Shape := ⟨2, ![1024, 768]⟩
abbrev S_ : Shape := ⟨0, ![]⟩

class Facts : Prop where
  bcast_S_S128x128x768 : S_.BroadcastsInDim S128x128x768 (![] : Fin 0 → Fin S128x128x768.rank)
  reducesTo_S128x128x768_S_d0_1_2 : S128x128x768.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_
  bcast_S_S1024x2x768 : S_.BroadcastsInDim S1024x2x768 (![] : Fin 0 → Fin S1024x2x768.rank)
  reducesTo_S1024x2x768_S_d0_1_2 : S1024x2x768.ReducesTo [0, 1, 2] S_
  bcast_S_S1024 : S_.BroadcastsInDim S1024 (![] : Fin 0 → Fin S1024.rank)
  reducesTo_S1024_S_d0 : S1024.ReducesTo [0] S_
  bcast_S_S1024x3x768 : S_.BroadcastsInDim S1024x3x768 (![] : Fin 0 → Fin S1024x3x768.rank)
  reducesTo_S1024x3x768_S_d0_1_2 : S1024x3x768.ReducesTo [0, 1, 2] S_
  bcast_S_S1024x4x768 : S_.BroadcastsInDim S1024x4x768 (![] : Fin 0 → Fin S1024x4x768.rank)
  reducesTo_S1024x4x768_S_d0_1_2 : S1024x4x768.ReducesTo [0, 1, 2] S_
  bcast_S_S1024x768 : S_.BroadcastsInDim S1024x768 (![] : Fin 0 → Fin S1024x768.rank)
  reducesTo_S1024x768_S_d0_1 : S1024x768.ReducesTo [0, 1] S_

variable [Facts]

def fn_part2 {F : FTy → Type} [FloatOps F] (main_arg7 : FVec F S1024 .f32) (main_arg8 : FVec F S1024x768 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x768 .f32 := Host.absf main_arg8
  let main_cst_14 : FVec F S_ .f32 := constant S_ .f32 0x7F800000#32
  let main_v40 : FVec F S1024x768 .f32 := broadcastInDim S1024x768 ![] bcast_S_S1024x768 main_cst_14
  let main_v41 : IVec S1024x768 1 := cmpf .olt main_v39 main_v40
  let main_c_15 : IVec S_ 1 := constantI S_ 1 1#1
  let main_v42 : IVec S_ 1 := (fun x v => Host.reduce IntOp.andi x v reducesTo_S1024x768_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x3x768 .f32) (main_arg5 : FVec F S1024 .f32) (main_arg6 : FVec F S1024x4x768 .f32) (main_arg7 : FVec F S1024 .f32) (main_arg8 : FVec F S1024x768 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x3x768 .f32 := Host.absf main_arg4
  let main_cst_6 : FVec F S_ .f32 := constant S_ .f32 0x7F800000#32
  let main_v20 : FVec F S1024x3x768 .f32 := broadcastInDim S1024x3x768 ![] bcast_S_S1024x3x768 main_cst_6
  let main_v21 : IVec S1024x3x768 1 := cmpf .olt main_v19 main_v20
  let main_c_7 : IVec S_ 1 := constantI S_ 1 1#1
  let main_v22 : IVec S_ 1 := (fun x v => Host.reduce IntOp.andi x v reducesTo_S1024x3x768_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4x768 .f32 := Host.absf main_arg6
  let main_cst_10 : FVec F S_ .f32 := constant S_ .f32 0x7F800000#32
  let main_v30 : FVec F S1024x4x768 .f32 := broadcastInDim S1024x4x768 ![] bcast_S_S1024x4x768 main_cst_10
  let main_v31 : IVec S1024x4x768 1 := cmpf .olt main_v29 main_v30
  let main_c_11 : IVec S_ 1 := constantI S_ 1 1#1
  let main_v32 : IVec S_ 1 := (fun x v => Host.reduce IntOp.andi x v reducesTo_S1024x4x768_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S128x128x768 .f32) (main_arg1 : FVec F S128x768 .f32) (main_arg2 : FVec F S1024x2x768 .f32) (main_arg3 : FVec F S1024 .f32) (main_arg4 : FVec F S1024x3x768 .f32) (main_arg5 : FVec F S1024 .f32) (main_arg6 : FVec F S1024x4x768 .f32) (main_arg7 : FVec F S1024 .f32) (main_arg8 : FVec F S1024x768 .f32) (main_arg9 : FVec F S1024 .f32) : IVec S_ 1 :=
  let main_v0 : FVec F S128x128x768 .f32 := Host.absf main_arg0
  let main_cst : FVec F S_ .f32 := constant S_ .f32 0x7F800000#32
  let main_v1 : FVec F S128x128x768 .f32 := broadcastInDim S128x128x768 ![] bcast_S_S128x128x768 main_cst
  let main_v2 : IVec S128x128x768 1 := cmpf .olt main_v0 main_v1
  let main_c : IVec S_ 1 := constantI S_ 1 1#1
  let main_v3 : IVec S_ 1 := (fun x v => Host.reduce IntOp.andi x v reducesTo_S128x128x768_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S1024x2x768 .f32 := Host.absf main_arg2
  let main_cst_2 : FVec F S_ .f32 := constant S_ .f32 0x7F800000#32
  let main_v10 : FVec F S1024x2x768 .f32 := broadcastInDim S1024x2x768 ![] bcast_S_S1024x2x768 main_cst_2
  let main_v11 : IVec S1024x2x768 1 := cmpf .olt main_v9 main_v10
  let main_c_3 : IVec S_ 1 := constantI S_ 1 1#1
  let main_v12 : IVec S_ 1 := (fun x v => Host.reduce IntOp.andi x v reducesTo_S1024x2x768_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S128x128x768 : Shape := ⟨3, ![128, 128, 768]⟩
abbrev S128x768 : Shape := ⟨2, ![128, 768]⟩
abbrev S1024x2x768 : Shape := ⟨3, ![1024, 2, 768]⟩
abbrev S1024 : Shape := ⟨1, ![1024]⟩
abbrev S1024x3x768 : Shape := ⟨3, ![1024, 3, 768]⟩
abbrev S1024x4x768 : Shape := ⟨3, ![1024, 4, 768]⟩
abbrev S1024x768 : Shape := ⟨2, ![1024, 768]⟩
abbrev S2x768x1024 : Shape := ⟨3, ![2, 768, 1024]⟩
abbrev S3x768x1024 : Shape := ⟨3, ![3, 768, 1024]⟩
abbrev S4x768x1024 : Shape := ⟨3, ![4, 768, 1024]⟩
abbrev S768x1024 : Shape := ⟨2, ![768, 1024]⟩
abbrev S1x1024 : Shape := ⟨2, ![1, 1024]⟩
abbrev S128x1x768 : Shape := ⟨3, ![128, 1, 768]⟩
abbrev S128x126x1024 : Shape := ⟨3, ![128, 126, 1024]⟩
abbrev S128x1x1024 : Shape := ⟨3, ![128, 1, 1024]⟩
abbrev S4x128x768 : Shape := ⟨3, ![4, 128, 768]⟩
abbrev S4x1x768 : Shape := ⟨3, ![4, 1, 768]⟩
abbrev S4x126x1024 : Shape := ⟨3, ![4, 126, 1024]⟩
abbrev S4x1x1024 : Shape := ⟨3, ![4, 1, 1024]⟩
abbrev S4x127x1024 : Shape := ⟨3, ![4, 127, 1024]⟩
abbrev S4x127x768 : Shape := ⟨3, ![4, 127, 768]⟩
abbrev S508x768 : Shape := ⟨2, ![508, 768]⟩
abbrev S1x768x1024 : Shape := ⟨3, ![1, 768, 1024]⟩
abbrev S508x1024 : Shape := ⟨2, ![508, 1024]⟩
abbrev S1x1x1024 : Shape := ⟨3, ![1, 1, 1024]⟩
abbrev S4x1024 : Shape := ⟨2, ![4, 1024]⟩
abbrev S4x126x768 : Shape := ⟨3, ![4, 126, 768]⟩
abbrev S504x768 : Shape := ⟨2, ![504, 768]⟩
abbrev S504x1024 : Shape := ⟨2, ![504, 1024]⟩
abbrev S4x124x1024 : Shape := ⟨3, ![4, 124, 1024]⟩
abbrev S4x125x1024 : Shape := ⟨3, ![4, 125, 1024]⟩
abbrev S4x125x768 : Shape := ⟨3, ![4, 125, 768]⟩
abbrev S500x768 : Shape := ⟨2, ![500, 768]⟩
abbrev S500x1024 : Shape := ⟨2, ![500, 1024]⟩
abbrev S4x124 : Shape := ⟨2, ![4, 124]⟩
abbrev S4x124x1 : Shape := ⟨3, ![4, 124, 1]⟩
abbrev S4 : Shape := ⟨1, ![4]⟩
abbrev S4x1 : Shape := ⟨2, ![4, 1]⟩
abbrev S4x768 : Shape := ⟨2, ![4, 768]⟩
abbrev S128x1024 : Shape := ⟨2, ![128, 1024]⟩
abbrev S128x1024x126 : Shape := ⟨3, ![128, 1024, 126]⟩

abbrev nBuf : Space → Nat
  | .hbm => 27
  | .vmem => 16
  | .smem => 0
  | _ => 0

abbrev bufTy : (tb : Table) → Fin (tcTables nBuf tb) → BufTy
  | .hbm, ⟨0, _⟩ => ⟨S128x128x768, .f32⟩
  | .hbm, ⟨1, _⟩ => ⟨S128x768, .f32⟩
  | .hbm, ⟨2, _⟩ => ⟨S1024x2x768, .f32⟩
  | .hbm, ⟨3, _⟩ => ⟨S1024, .f32⟩
  | .hbm, ⟨4, _⟩ => ⟨S1024x3x768, .f32⟩
  | .hbm, ⟨5, _⟩ => ⟨S1024, .f32⟩
  | .hbm, ⟨6, _⟩ => ⟨S1024x4x768, .f32⟩
  | .hbm, ⟨7, _⟩ => ⟨S1024, .f32⟩
  | .hbm, ⟨8, _⟩ => ⟨S1024x768, .f32⟩
  | .hbm, ⟨9, _⟩ => ⟨S1024, .f32⟩
  | .hbm, ⟨10, _⟩ => ⟨S1024x2x768, .bf16⟩
  | .hbm, ⟨11, _⟩ => ⟨S2x768x1024, .bf16⟩
  | .hbm, ⟨12, _⟩ => ⟨S1024x3x768, .bf16⟩
  | .hbm, ⟨13, _⟩ => ⟨S3x768x1024, .bf16⟩
  | .hbm, ⟨14, _⟩ => ⟨S1024x4x768, .bf16⟩
  | .hbm, ⟨15, _⟩ => ⟨S4x768x1024, .bf16⟩
  | .hbm, ⟨16, _⟩ => ⟨S1024x768, .bf16⟩
  | .hbm, ⟨17, _⟩ => ⟨S768x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S128x1x768, .f32⟩
  | .hbm, ⟨23, _⟩ => ⟨S128x126x1024, .f32⟩
  | .hbm, ⟨24, _⟩ => ⟨S128x1x1024, .f32⟩
  | .hbm, ⟨25, _⟩ => ⟨S128x1024, .f32⟩
  | .hbm, ⟨26, _⟩ => ⟨S128x1024x126, .f32⟩
  | .local _ .vmem, ⟨0, _⟩ => ⟨S4x128x768, .f32⟩
  | .local _ .vmem, ⟨1, _⟩ => ⟨S4x128x768, .f32⟩
  | .local _ .vmem, ⟨2, _⟩ => ⟨S4x1x768, .f32⟩
  | .local _ .vmem, ⟨3, _⟩ => ⟨S4x1x768, .f32⟩
  | .local _ .vmem, ⟨4, _⟩ => ⟨S2x768x1024, .bf16⟩
  | .local _ .vmem, ⟨5, _⟩ => ⟨S3x768x1024, .bf16⟩
  | .local _ .vmem, ⟨6, _⟩ => ⟨S4x768x1024, .bf16⟩
  | .local _ .vmem, ⟨7, _⟩ => ⟨S768x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x126x1024, .f32⟩
  | .local _ .vmem, ⟨13, _⟩ => ⟨S4x126x1024, .f32⟩
  | .local _ .vmem, ⟨14, _⟩ => ⟨S4x1x1024, .f32⟩
  | .local _ .vmem, ⟨15, _⟩ => ⟨S4x1x1024, .f32⟩
  | _, _ => ⟨S128x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x126x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S1024x2x768_S2x768x1024_1_2_0 : S1024x2x768.Transposes [1, 2, 0] S2x768x1024
  transposes_S1024x3x768_S3x768x1024_1_2_0 : S1024x3x768.Transposes [1, 2, 0] S3x768x1024
  transposes_S1024x4x768_S4x768x1024_1_2_0 : S1024x4x768.Transposes [1, 2, 0] S4x768x1024
  transposes_S1024x768_S768x1024_1_0 : S1024x768.Transposes [1, 0] S768x1024
  shapeCasts_S1024_S1x1024 : S1024.ShapeCasts S1x1024
  shapeCasts_S128x768_S128x1x768 : S128x768.ShapeCasts S128x1x768
  inb_S4x128x768_S4x128x768_0_0_0 : ∀ a, (![0, 0, 0] : Fin 3 → Nat) a + S4x128x768.size a ≤ S4x128x768.size a
  h_S4x128x768 : 0 < S4x128x768.numel
  slices_S4x128x768_o0_0_0_S4x127x768 : S4x128x768.Slices ![0, 0, 0] S4x127x768
  shapeCasts_S4x127x768_S508x768 : S4x127x768.ShapeCasts S508x768
  inb_S2x768x1024_S1x768x1024_0_0_0 : ∀ a, (![0, 0, 0] : Fin 3 → Nat) a + S1x768x1024.size a ≤ S2x768x1024.size a
  h_S1x768x1024 : 0 < S1x768x1024.numel
  shapeCasts_S1x768x1024_S768x1024 : S1x768x1024.ShapeCasts S768x1024
  shapeCasts_S508x1024_S4x127x1024 : S508x1024.ShapeCasts S4x127x1024
  slices_S4x128x768_o0_1_0_S4x127x768 : S4x128x768.Slices ![0, 1, 0] S4x127x768
  inb_S2x768x1024_S1x768x1024_1_0_0 : ∀ a, (![1, 0, 0] : Fin 3 → Nat) a + S1x768x1024.size a ≤ S2x768x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x127x1024 : S1x1x1024.Broadcasts S4x127x1024
  slices_S4x127x1024_o0_125_0_S4x1x1024 : S4x127x1024.Slices ![0, 125, 0] S4x1x1024
  shapeCasts_S4x1x1024_S4x1024 : S4x1x1024.ShapeCasts S4x1024
  slices_S4x128x768_o0_0_0_S4x126x768 : S4x128x768.Slices ![0, 0, 0] S4x126x768
  shapeCasts_S4x126x768_S504x768 : S4x126x768.ShapeCasts S504x768
  inb_S3x768x1024_S1x768x1024_0_0_0 : ∀ a, (![0, 0, 0] : Fin 3 → Nat) a + S1x768x1024.size a ≤ S3x768x1024.size a
  shapeCasts_S504x1024_S4x126x1024 : S504x1024.ShapeCasts S4x126x1024
  slices_S4x128x768_o0_1_0_S4x126x768 : S4x128x768.Slices ![0, 1, 0] S4x126x768
  inb_S3x768x1024_S1x768x1024_1_0_0 : ∀ a, (![1, 0, 0] : Fin 3 → Nat) a + S1x768x1024.size a ≤ S3x768x1024.size a
  slices_S4x128x768_o0_2_0_S4x126x768 : S4x128x768.Slices ![0, 2, 0] S4x126x768
  inb_S3x768x1024_S1x768x1024_2_0_0 : ∀ a, (![2, 0, 0] : Fin 3 → Nat) a + S1x768x1024.size a ≤ S3x768x1024.size a
  broadcasts_S1x1x1024_S4x126x1024 : S1x1x1024.Broadcasts S4x126x1024
  slices_S4x127x1024_o0_0_0_S4x124x1024 : S4x127x1024.Slices ![0, 0, 0] S4x124x1024
  slices_S4x126x1024_o0_0_0_S4x124x1024 : S4x126x1024.Slices ![0, 0, 0] S4x124x1024
  slices_S4x127x1024_o0_124_0_S4x1x1024 : S4x127x1024.Slices ![0, 124, 0] S4x1x1024
  slices_S4x126x1024_o0_124_0_S4x1x1024 : S4x126x1024.Slices ![0, 124, 0] S4x1x1024
  slices_S4x128x768_o0_0_0_S4x125x768 : S4x128x768.Slices ![0, 0, 0] S4x125x768
  shapeCasts_S4x125x768_S500x768 : S4x125x768.ShapeCasts S500x768
  inb_S4x768x1024_S1x768x1024_0_0_0 : ∀ a, (![0, 0, 0] : Fin 3 → Nat) a + S1x768x1024.size a ≤ S4x768x1024.size a
  shapeCasts_S500x1024_S4x125x1024 : S500x1024.ShapeCasts S4x125x1024
  slices_S4x128x768_o0_1_0_S4x125x768 : S4x128x768.Slices ![0, 1, 0] S4x125x768
  inb_S4x768x1024_S1x768x1024_1_0_0 : ∀ a, (![1, 0, 0] : Fin 3 → Nat) a + S1x768x1024.size a ≤ S4x768x1024.size a
  slices_S4x128x768_o0_2_0_S4x125x768 : S4x128x768.Slices ![0, 2, 0] S4x125x768
  inb_S4x768x1024_S1x768x1024_2_0_0 : ∀ a, (![2, 0, 0] : Fin 3 → Nat) a + S1x768x1024.size a ≤ S4x768x1024.size a
  slices_S4x128x768_o0_3_0_S4x125x768 : S4x128x768.Slices ![0, 3, 0] S4x125x768
  inb_S4x768x1024_S1x768x1024_3_0_0 : ∀ a, (![3, 0, 0] : Fin 3 → Nat) a + S1x768x1024.size a ≤ S4x768x1024.size a
  broadcasts_S1x1x1024_S4x125x1024 : S1x1x1024.Broadcasts S4x125x1024
  slices_S4x125x1024_o0_0_0_S4x124x1024 : S4x125x1024.Slices ![0, 0, 0] S4x124x1024
  reduces_S4x124x1024_S4x124 : S4x124x1024.Reduces [2] S4x124
  shapeCasts_S4x124_S4x124x1 : S4x124.ShapeCasts S4x124x1
  broadcasts_S4x124x1_S4x124x1024 : S4x124x1.Broadcasts S4x124x1024
  reduces_S4x1024_S4 : S4x1024.Reduces [1] S4
  shapeCasts_S4_S4x1 : S4.ShapeCasts S4x1
  broadcasts_S4x1_S4x1024 : S4x1.Broadcasts S4x1024
  shapeCasts_S4x1024_S4x1x1024 : S4x1024.ShapeCasts S4x1x1024
  concatenates_S4x124x1024_S4x1x1024_S4x1x1024_S4x126x1024_d1 : Shape.Concatenates [S4x124x1024, S4x1x1024, S4x1x1024] S4x126x1024 1
  inb_S4x126x1024_S4x126x1024_0_0_0 : ∀ a, (![0, 0, 0] : Fin 3 → Nat) a + S4x126x1024.size a ≤ S4x126x1024.size a
  h_S4x126x1024 : 0 < S4x126x1024.numel
  inb_S4x1x768_S4x1x768_0_0_0 : ∀ a, (![0, 0, 0] : Fin 3 → Nat) a + S4x1x768.size a ≤ S4x1x768.size a
  h_S4x1x768 : 0 < S4x1x768.numel
  shapeCasts_S4x1x768_S4x1x768 : S4x1x768.ShapeCasts S4x1x768
  shapeCasts_S4x1x768_S4x768 : S4x1x768.ShapeCasts S4x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  broadcasts_S1x1024_S4x1024 : S1x1024.Broadcasts S4x1024
  inb_S4x1x1024_S4x1x1024_0_0_0 : ∀ a, (![0, 0, 0] : Fin 3 → Nat) a + S4x1x1024.size a ≤ S4x1x1024.size a
  h_S4x1x1024 : 0 < S4x1x1024.numel
  shapeCasts_S128x1x1024_S128x1024 : S128x1x1024.ShapeCasts S128x1024
  transposes_S128x126x1024_S128x1024x126_0_2_1 : S128x126x1024.Transposes [0, 2, 1] S128x1024x126
  dot_S508x768_S768x1024_S508x1024_1_0_0_1_n_n_wf : DotDims.WF S508x768 S768x1024 S508x1024 [1] [0] [0] [1] [] []
  dot_S504x768_S768x1024_S504x1024_1_0_0_1_n_n_wf : DotDims.WF S504x768 S768x1024 S504x1024 [1] [0] [0] [1] [] []
  dot_S500x768_S768x1024_S500x1024_1_0_0_1_n_n_wf : DotDims.WF S500x768 S768x1024 S500x1024 [1] [0] [0] [1] [] []
  dot_S4x768_S768x1024_S4x1024_1_0_0_1_n_n_wf : DotDims.WF S4x768 S768x1024 S4x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x768.size a ≤ S128x128x768.size a
  hwx0_0 : ∀ i : grid0.Coords, EltTy.bits .f32 = 32 ∨ (Rect.block (s := S128x128x768) S4x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x768.size a ≤ S128x1x768.size a
  hwx0_1 : ∀ i : grid0.Coords, EltTy.bits .f32 = 32 ∨ (Rect.block (s := S128x1x768) S4x1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x768x1024.size a ≤ S2x768x1024.size a
  hwx0_2 : ∀ i : grid0.Coords, EltTy.bits .bf16 = 32 ∨ (Rect.block (s := S2x768x1024) S2x768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x768x1024.size a ≤ S3x768x1024.size a
  hwx0_3 : ∀ i : grid0.Coords, EltTy.bits .bf16 = 32 ∨ (Rect.block (s := S3x768x1024) S3x768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x768x1024.size a ≤ S4x768x1024.size a
  hwx0_4 : ∀ i : grid0.Coords, EltTy.bits .bf16 = 32 ∨ (Rect.block (s := S4x768x1024) S4x768x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x1024.size a ≤ S768x1024.size a
  hwx0_5 : ∀ i : grid0.Coords, EltTy.bits .bf16 = 32 ∨ (Rect.block (s := S768x1024) S768x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x126x1024.size a ≤ S128x126x1024.size a
  hwx0_10 : ∀ i : grid0.Coords, EltTy.bits .f32 = 32 ∨ (Rect.block (s := S128x126x1024) S4x126x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x1x1024.size a ≤ S128x1x1024.size a
  hwx0_11 : ∀ i : grid0.Coords, EltTy.bits .f32 = 32 ∨ (Rect.block (s := S128x1x1024) S4x1x1024.size (cc0_transform_11 i) (hinb0_11 i)).WholeWords (EltTy.packing .f32)

variable [Facts₀]

def dot_S508x768_S768x1024_S508x1024_1_0_0_1_n_n : DotDims S508x768 S768x1024 S508x1024 where
  lhsContracting := [1]
  rhsContracting := [0]
  lhsNonContracting := [0]
  rhsNonContracting := [1]
  lhsBatch := []
  rhsBatch := []
  wf := dot_S508x768_S768x1024_S508x1024_1_0_0_1_n_n_wf
def dot_S504x768_S768x1024_S504x1024_1_0_0_1_n_n : DotDims S504x768 S768x1024 S504x1024 where
  lhsContracting := [1]
  rhsContracting := [0]
  lhsNonContracting := [0]
  rhsNonContracting := [1]
  lhsBatch := []
  rhsBatch := []
  wf := dot_S504x768_S768x1024_S504x1024_1_0_0_1_n_n_wf
def dot_S500x768_S768x1024_S500x1024_1_0_0_1_n_n : DotDims S500x768 S768x1024 S500x1024 where
  lhsContracting := [1]
  rhsContracting := [0]
  lhsNonContracting := [0]
  rhsNonContracting := [1]
  lhsBatch := []
  rhsBatch := []
  wf := dot_S500x768_S768x1024_S500x1024_1_0_0_1_n_n_wf
def dot_S4x768_S768x1024_S4x1024_1_0_0_1_n_n : DotDims S4x768 S768x1024 S4x1024 where
  lhsContracting := [1]
  rhsContracting := [0]
  lhsNonContracting := [0]
  rhsNonContracting := [1]
  lhsBatch := []
  rhsBatch := []
  wf := dot_S4x768_S768x1024_S4x1024_1_0_0_1_n_n_wf

abbrev win0_0 : Pipeline.Window sig grid0 :=
  Pipeline.Window.ofSpec (Memref.whole main_arg0) S4x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x768x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13_0) S4x126x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13_1) S4x1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S128x128x768 : Shape := ⟨3, ![128, 128, 768]⟩
abbrev S128x768 : Shape := ⟨2, ![128, 768]⟩
abbrev S1024x2x768 : Shape := ⟨3, ![1024, 2, 768]⟩
abbrev S1024 : Shape := ⟨1, ![1024]⟩
abbrev S1024x3x768 : Shape := ⟨3, ![1024, 3, 768]⟩
abbrev S1024x4x768 : Shape := ⟨3, ![1024, 4, 768]⟩
abbrev S1024x768 : Shape := ⟨2, ![1024, 768]⟩
abbrev S768x1024 : Shape := ⟨2, ![768, 1024]⟩
abbrev S128x1024 : Shape := ⟨2, ![128, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S128x127x768 : Shape := ⟨3, ![128, 127, 768]⟩
abbrev S1024x1x768 : Shape := ⟨3, ![1024, 1, 768]⟩
abbrev S128x127x1024 : Shape := ⟨3, ![128, 127, 1024]⟩
abbrev S1x1x1024 : Shape := ⟨3, ![1, 1, 1024]⟩
abbrev S128x126x768 : Shape := ⟨3, ![128, 126, 768]⟩
abbrev S128x126x1024 : Shape := ⟨3, ![128, 126, 1024]⟩
abbrev S128x125x768 : Shape := ⟨3, ![128, 125, 768]⟩
abbrev S128x125x1024 : Shape := ⟨3, ![128, 125, 1024]⟩
abbrev S128x124x1024 : Shape := ⟨3, ![128, 124, 1024]⟩
abbrev S128x1x1024 : Shape := ⟨3, ![128, 1, 1024]⟩
abbrev S128x126 : Shape := ⟨2, ![128, 126]⟩
abbrev S128x126x1 : Shape := ⟨3, ![128, 126, 1]⟩
abbrev S128x1024x126 : Shape := ⟨3, ![128, 1024, 126]⟩

abbrev nBuf : Space → Nat
  | .hbm => 120
  | .vmem => 0
  | .smem => 0
  | _ => 0

abbrev bufTy : (tb : Table) → Fin (tcTables nBuf tb) → BufTy
  | .hbm, ⟨0, _⟩ => ⟨S128x128x768, .f32⟩
  | .hbm, ⟨1, _⟩ => ⟨S128x768, .f32⟩
  | .hbm, ⟨2, _⟩ => ⟨S1024x2x768, .f32⟩
  | .hbm, ⟨3, _⟩ => ⟨S1024, .f32⟩
  | .hbm, ⟨4, _⟩ => ⟨S1024x3x768, .f32⟩
  | .hbm, ⟨5, _⟩ => ⟨S1024, .f32⟩
  | .hbm, ⟨6, _⟩ => ⟨S1024x4x768, .f32⟩
  | .hbm, ⟨7, _⟩ => ⟨S1024, .f32⟩
  | .hbm, ⟨8, _⟩ => ⟨S1024x768, .f32⟩
  | .hbm, ⟨9, _⟩ => ⟨S1024, .f32⟩
  | .hbm, ⟨10, _⟩ => ⟨S768x1024, .f32⟩
  | .hbm, ⟨11, _⟩ => ⟨S128x1024, .f32⟩
  | .hbm, ⟨12, _⟩ => ⟨S1x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1024, .f32⟩
  | .hbm, ⟨24, _⟩ => ⟨S128x1024, .f32⟩
  | .hbm, ⟨25, _⟩ => ⟨S128x127x768, .f32⟩
  | .hbm, ⟨26, _⟩ => ⟨S1024x1x768, .f32⟩
  | .hbm, ⟨27, _⟩ => ⟨S1024x768, .f32⟩
  | .hbm, ⟨28, _⟩ => ⟨S128x127x1024, .f32⟩
  | .hbm, ⟨29, _⟩ => ⟨S_, .f32⟩
  | .hbm, ⟨30, _⟩ => ⟨S128x127x1024, .f32⟩
  | .hbm, ⟨31, _⟩ => ⟨S128x127x1024, .f32⟩
  | .hbm, ⟨32, _⟩ => ⟨S128x127x768, .f32⟩
  | .hbm, ⟨33, _⟩ => ⟨S1024x1x768, .f32⟩
  | .hbm, ⟨34, _⟩ => ⟨S1024x768, .f32⟩
  | .hbm, ⟨35, _⟩ => ⟨S128x127x1024, .f32⟩
  | .hbm, ⟨36, _⟩ => ⟨S128x127x1024, .f32⟩
  | .hbm, ⟨37, _⟩ => ⟨S1x1x1024, .f32⟩
  | .hbm, ⟨38, _⟩ => ⟨S128x127x1024, .f32⟩
  | .hbm, ⟨39, _⟩ => ⟨S128x127x1024, .f32⟩
  | .hbm, ⟨40, _⟩ => ⟨S_, .f32⟩
  | .hbm, ⟨41, _⟩ => ⟨S128x127x1024, .f32⟩
  | .hbm, ⟨42, _⟩ => ⟨S128x127x1024, .f32⟩
  | .hbm, ⟨43, _⟩ => ⟨S128x126x768, .f32⟩
  | .hbm, ⟨44, _⟩ => ⟨S1024x1x768, .f32⟩
  | .hbm, ⟨45, _⟩ => ⟨S1024x768, .f32⟩
  | .hbm, ⟨46, _⟩ => ⟨S128x126x1024, .f32⟩
  | .hbm, ⟨47, _⟩ => ⟨S_, .f32⟩
  | .hbm, ⟨48, _⟩ => ⟨S128x126x1024, .f32⟩
  | .hbm, ⟨49, _⟩ => ⟨S128x126x1024, .f32⟩
  | .hbm, ⟨50, _⟩ => ⟨S128x126x768, .f32⟩
  | .hbm, ⟨51, _⟩ => ⟨S1024x1x768, .f32⟩
  | .hbm, ⟨52, _⟩ => ⟨S1024x768, .f32⟩
  | .hbm, ⟨53, _⟩ => ⟨S128x126x1024, .f32⟩
  | .hbm, ⟨54, _⟩ => ⟨S128x126x1024, .f32⟩
  | .hbm, ⟨55, _⟩ => ⟨S128x126x768, .f32⟩
  | .hbm, ⟨56, _⟩ => ⟨S1024x1x768, .f32⟩
  | .hbm, ⟨57, _⟩ => ⟨S1024x768, .f32⟩
  | .hbm, ⟨58, _⟩ => ⟨S128x126x1024, .f32⟩
  | .hbm, ⟨59, _⟩ => ⟨S128x126x1024, .f32⟩
  | .hbm, ⟨60, _⟩ => ⟨S1x1x1024, .f32⟩
  | .hbm, ⟨61, _⟩ => ⟨S128x126x1024, .f32⟩
  | .hbm, ⟨62, _⟩ => ⟨S128x126x1024, .f32⟩
  | .hbm, ⟨63, _⟩ => ⟨S_, .f32⟩
  | .hbm, ⟨64, _⟩ => ⟨S128x126x1024, .f32⟩
  | .hbm, ⟨65, _⟩ => ⟨S128x126x1024, .f32⟩
  | .hbm, ⟨66, _⟩ => ⟨S128x125x768, .f32⟩
  | .hbm, ⟨67, _⟩ => ⟨S1024x1x768, .f32⟩
  | .hbm, ⟨68, _⟩ => ⟨S1024x768, .f32⟩
  | .hbm, ⟨69, _⟩ => ⟨S128x125x1024, .f32⟩
  | .hbm, ⟨70, _⟩ => ⟨S_, .f32⟩
  | .hbm, ⟨71, _⟩ => ⟨S128x125x1024, .f32⟩
  | .hbm, ⟨72, _⟩ => ⟨S128x125x1024, .f32⟩
  | .hbm, ⟨73, _⟩ => ⟨S128x125x768, .f32⟩
  | .hbm, ⟨74, _⟩ => ⟨S1024x1x768, .f32⟩
  | .hbm, ⟨75, _⟩ => ⟨S1024x768, .f32⟩
  | .hbm, ⟨76, _⟩ => ⟨S128x125x1024, .f32⟩
  | .hbm, ⟨77, _⟩ => ⟨S128x125x1024, .f32⟩
  | .hbm, ⟨78, _⟩ => ⟨S128x125x768, .f32⟩
  | .hbm, ⟨79, _⟩ => ⟨S1024x1x768, .f32⟩
  | .hbm, ⟨80, _⟩ => ⟨S1024x768, .f32⟩
  | .hbm, ⟨81, _⟩ => ⟨S128x125x1024, .f32⟩
  | .hbm, ⟨82, _⟩ => ⟨S128x125x1024, .f32⟩
  | .hbm, ⟨83, _⟩ => ⟨S128x125x768, .f32⟩
  | .hbm, ⟨84, _⟩ => ⟨S1024x1x768, .f32⟩
  | .hbm, ⟨85, _⟩ => ⟨S1024x768, .f32⟩
  | .hbm, ⟨86, _⟩ => ⟨S128x125x1024, .f32⟩
  | .hbm, ⟨87, _⟩ => ⟨S128x125x1024, .f32⟩
  | .hbm, ⟨88, _⟩ => ⟨S1x1x1024, .f32⟩
  | .hbm, ⟨89, _⟩ => ⟨S128x125x1024, .f32⟩
  | .hbm, ⟨90, _⟩ => ⟨S128x125x1024, .f32⟩
  | .hbm, ⟨91, _⟩ => ⟨S_, .f32⟩
  | .hbm, ⟨92, _⟩ => ⟨S128x125x1024, .f32⟩
  | .hbm, ⟨93, _⟩ => ⟨S128x125x1024, .f32⟩
  | .hbm, ⟨94, _⟩ => ⟨S128x124x1024, .f32⟩
  | .hbm, ⟨95, _⟩ => ⟨S128x124x1024, .f32⟩
  | .hbm, ⟨96, _⟩ => ⟨S128x124x1024, .f32⟩
  | .hbm, ⟨97, _⟩ => ⟨S128x124x1024, .f32⟩
  | .hbm, ⟨98, _⟩ => ⟨S128x124x1024, .f32⟩
  | .hbm, ⟨99, _⟩ => ⟨S128x1x1024, .f32⟩
  | .hbm, ⟨100, _⟩ => ⟨S128x1024, .f32⟩
  | .hbm, ⟨101, _⟩ => ⟨S128x1x1024, .f32⟩
  | .hbm, ⟨102, _⟩ => ⟨S128x1024, .f32⟩
  | .hbm, ⟨103, _⟩ => ⟨S128x1024, .f32⟩
  | .hbm, ⟨104, _⟩ => ⟨S128x1x1024, .f32⟩
  | .hbm, ⟨105, _⟩ => ⟨S128x1x1024, .f32⟩
  | .hbm, ⟨106, _⟩ => ⟨S128x1024, .f32⟩
  | .hbm, ⟨107, _⟩ => ⟨S128x1x1024, .f32⟩
  | .hbm, ⟨108, _⟩ => ⟨S128x126x1024, .f32⟩
  | .hbm, ⟨109, _⟩ => ⟨S128x126x1024, .f32⟩
  | .hbm, ⟨110, _⟩ => ⟨S_, .f32⟩
  | .hbm, ⟨111, _⟩ => ⟨S128x126, .f32⟩
  | .hbm, ⟨112, _⟩ => ⟨S128x126x1, .f32⟩
  | .hbm, ⟨113, _⟩ => ⟨S128x126x1, .f32⟩
  | .hbm, ⟨114, _⟩ => ⟨S_, .f32⟩
  | .hbm, ⟨115, _⟩ => ⟨S128x126x1, .f32⟩
  | .hbm, ⟨116, _⟩ => ⟨S128x126x1, .f32⟩
  | .hbm, ⟨117, _⟩ => ⟨S128x126x1024, .f32⟩
  | .hbm, ⟨118, _⟩ => ⟨S128x126x1024, .f32⟩
  | .hbm, ⟨119, _⟩ => ⟨S128x1024x126, .f32⟩
  | _, _ => ⟨S128x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_cst : Ref sig .tc := ⟨.hbm, 63, rfl⟩
abbrev main_call1_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call2_cst : Ref sig .tc := ⟨.hbm, 91, rfl⟩
abbrev main_call2_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_4 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_5 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩

abbrev nD : Nat := 1
abbrev τ : Topo := Topo.v7x

variable {F : FTy → Type} [FloatOps F]

class Facts₀ : Prop where
  transposes_S1024x768_S768x1024_1_0 : S1024x768.Transposes [1, 0] S768x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  reducesTo_S128x1024_S128_d1 : S128x1024.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1024_0_1 : S128x1.BroadcastsInDim S128x1024 (![0, 1] : Fin 2 → Fin S128x1024.rank)
  slices_S128x128x768_S128x127x768_0_0_0 : S128x128x768.Slices ![0, 0, 0] S128x127x768
  slices_S1024x2x768_S1024x1x768_0_0_0 : S1024x2x768.Slices ![0, 0, 0] S1024x1x768
  shapeCasts_S1024x1x768_S1024x768 : S1024x1x768.ShapeCasts S1024x768
  bcast_S_S128x127x1024 : S_.BroadcastsInDim S128x127x1024 (![] : Fin 0 → Fin S128x127x1024.rank)
  slices_S128x128x768_S128x127x768_0_1_0 : S128x128x768.Slices ![0, 1, 0] S128x127x768
  slices_S1024x2x768_S1024x1x768_0_1_0 : S1024x2x768.Slices ![0, 1, 0] S1024x1x768
  bcast_S1024_S1x1x1024_2 : S1024.BroadcastsInDim S1x1x1024 (![2] : Fin 1 → Fin S1x1x1024.rank)
  bcast_S1x1x1024_S128x127x1024_0_1_2 : S1x1x1024.BroadcastsInDim S128x127x1024 (![0, 1, 2] : Fin 3 → Fin S128x127x1024.rank)
  slices_S128x128x768_S128x126x768_0_0_0 : S128x128x768.Slices ![0, 0, 0] S128x126x768
  slices_S1024x3x768_S1024x1x768_0_0_0 : S1024x3x768.Slices ![0, 0, 0] S1024x1x768
  bcast_S_S128x126x1024 : S_.BroadcastsInDim S128x126x1024 (![] : Fin 0 → Fin S128x126x1024.rank)
  slices_S128x128x768_S128x126x768_0_1_0 : S128x128x768.Slices ![0, 1, 0] S128x126x768
  slices_S1024x3x768_S1024x1x768_0_1_0 : S1024x3x768.Slices ![0, 1, 0] S1024x1x768
  slices_S128x128x768_S128x126x768_0_2_0 : S128x128x768.Slices ![0, 2, 0] S128x126x768
  slices_S1024x3x768_S1024x1x768_0_2_0 : S1024x3x768.Slices ![0, 2, 0] S1024x1x768
  bcast_S1x1x1024_S128x126x1024_0_1_2 : S1x1x1024.BroadcastsInDim S128x126x1024 (![0, 1, 2] : Fin 3 → Fin S128x126x1024.rank)
  slices_S128x128x768_S128x125x768_0_0_0 : S128x128x768.Slices ![0, 0, 0] S128x125x768
  slices_S1024x4x768_S1024x1x768_0_0_0 : S1024x4x768.Slices ![0, 0, 0] S1024x1x768
  bcast_S_S128x125x1024 : S_.BroadcastsInDim S128x125x1024 (![] : Fin 0 → Fin S128x125x1024.rank)
  slices_S128x128x768_S128x125x768_0_1_0 : S128x128x768.Slices ![0, 1, 0] S128x125x768
  slices_S1024x4x768_S1024x1x768_0_1_0 : S1024x4x768.Slices ![0, 1, 0] S1024x1x768
  slices_S128x128x768_S128x125x768_0_2_0 : S128x128x768.Slices ![0, 2, 0] S128x125x768
  slices_S1024x4x768_S1024x1x768_0_2_0 : S1024x4x768.Slices ![0, 2, 0] S1024x1x768
  slices_S128x128x768_S128x125x768_0_3_0 : S128x128x768.Slices ![0, 3, 0] S128x125x768
  slices_S1024x4x768_S1024x1x768_0_3_0 : S1024x4x768.Slices ![0, 3, 0] S1024x1x768
  bcast_S1x1x1024_S128x125x1024_0_1_2 : S1x1x1024.BroadcastsInDim S128x125x1024 (![0, 1, 2] : Fin 3 → Fin S128x125x1024.rank)
  slices_S128x127x1024_S128x124x1024_0_0_0 : S128x127x1024.Slices ![0, 0, 0] S128x124x1024
  slices_S128x126x1024_S128x124x1024_0_0_0 : S128x126x1024.Slices ![0, 0, 0] S128x124x1024
  slices_S128x125x1024_S128x124x1024_0_0_0 : S128x125x1024.Slices ![0, 0, 0] S128x124x1024
  slices_S128x127x1024_S128x1x1024_0_124_0 : S128x127x1024.Slices ![0, 124, 0] S128x1x1024
  shapeCasts_S128x1x1024_S128x1024 : S128x1x1024.ShapeCasts S128x1024
  slices_S128x126x1024_S128x1x1024_0_124_0 : S128x126x1024.Slices ![0, 124, 0] S128x1x1024
  bcast_S128x1024_S128x1x1024_0_2 : S128x1024.BroadcastsInDim S128x1x1024 (![0, 2] : Fin 2 → Fin S128x1x1024.rank)
  slices_S128x127x1024_S128x1x1024_0_125_0 : S128x127x1024.Slices ![0, 125, 0] S128x1x1024
  concatenates_S128x124x1024_S128x1x1024_S128x1x1024_S128x126x1024_d1 : Shape.Concatenates [S128x124x1024, S128x1x1024, S128x1x1024] S128x126x1024 1
  reducesTo_S128x126x1024_S128x126_d2 : S128x126x1024.ReducesTo [2] S128x126
  bcast_S128x126_S128x126x1_0_1 : S128x126.BroadcastsInDim S128x126x1 (![0, 1] : Fin 2 → Fin S128x126x1.rank)
  bcast_S_S128x126x1 : S_.BroadcastsInDim S128x126x1 (![] : Fin 0 → Fin S128x126x1.rank)
  bcast_S128x126x1_S128x126x1024_0_1_2 : S128x126x1.BroadcastsInDim S128x126x1024 (![0, 1, 2] : Fin 3 → Fin S128x126x1024.rank)
  transposes_S128x126x1024_S128x1024x126_0_2_1 : S128x126x1024.Transposes [0, 2, 1] S128x1024x126
  dot_S128x768_S768x1024_S128x1024_1_0_0_1_n_n_wf : DotDims.WF S128x768 S768x1024 S128x1024 [1] [0] [0] [1] [] []
  dot_S128x127x768_S1024x768_S128x127x1024_2_1_01_0_n_n_wf : DotDims.WF S128x127x768 S1024x768 S128x127x1024 [2] [1] [0, 1] [0] [] []
  dot_S128x126x768_S1024x768_S128x126x1024_2_1_01_0_n_n_wf : DotDims.WF S128x126x768 S1024x768 S128x126x1024 [2] [1] [0, 1] [0] [] []
  dot_S128x125x768_S1024x768_S128x125x1024_2_1_01_0_n_n_wf : DotDims.WF S128x125x768 S1024x768 S128x125x1024 [2] [1] [0, 1] [0] [] []

variable [Facts₀]

def dot_S128x768_S768x1024_S128x1024_1_0_0_1_n_n : DotDims S128x768 S768x1024 S128x1024 where
  lhsContracting := [1]
  rhsContracting := [0]
  lhsNonContracting := [0]
  rhsNonContracting := [1]
  lhsBatch := []
  rhsBatch := []
  wf := dot_S128x768_S768x1024_S128x1024_1_0_0_1_n_n_wf
def dot_S128x127x768_S1024x768_S128x127x1024_2_1_01_0_n_n : DotDims S128x127x768 S1024x768 S128x127x1024 where
  lhsContracting := [2]
  rhsContracting := [1]
  lhsNonContracting := [0, 1]
  rhsNonContracting := [0]
  lhsBatch := []
  rhsBatch := []
  wf := dot_S128x127x768_S1024x768_S128x127x1024_2_1_01_0_n_n_wf
def dot_S128x126x768_S1024x768_S128x126x1024_2_1_01_0_n_n : DotDims S128x126x768 S1024x768 S128x126x1024 where
  lhsContracting := [2]
  rhsContracting := [1]
  lhsNonContracting := [0, 1]
  rhsNonContracting := [0]
  lhsBatch := []
  rhsBatch := []
  wf := dot_S128x126x768_S1024x768_S128x126x1024_2_1_01_0_n_n_wf
def dot_S128x125x768_S1024x768_S128x125x1024_2_1_01_0_n_n : DotDims S128x125x768 S1024x768 S128x125x1024 where
  lhsContracting := [2]
  rhsContracting := [1]
  lhsNonContracting := [0, 1]
  rhsNonContracting := [0]
  lhsBatch := []
  rhsBatch := []
  wf := dot_S128x125x768_S1024x768_S128x125x1024_2_1_01_0_n_n_wf

class Facts : Prop extends Facts₀ where

variable [Facts]
-- ==== Proof.Spec.lean ====
/-
  What the text-convolution encoder computes for ONE sentence, as plain functions on the extended reals.

  A sentence is 128 word rows of 768 coordinates. A convolution of width K slides K filter taps over consecutive rows:
  its value at row l and filter f is the sum over the taps k of the inner product of row l + k with tap k of filter f,
  plus the filter's bias, clamped below at 0. Widths 2, 3 and 4 give 127, 126 and 125 rows. The code of the sentence
  has 126 rows: rows 0..123 are the pointwise maximum of the three convolutions, row 124 the maximum of the widths 2
  and 3 at row 124, row 125 the width-2 convolution at row 125. Every row is then divided by its Euclidean norm over
  the 1024 filters, the norm clamped below at a small constant. The sentence head is one affine map of the sentence
  vector, normalised the same way.
-/
import Idealize.ShloMosaic.PureOps.Ideal
import Idealize.ShloMosaic.PureOps.Ideal.Laws

open scoped BigOperators

noncomputable section

namespace Cert.TextConv

open Idealize.ShloMosaic

/-- The lower clamp of a norm: the float word both programs carry, read as an extended real. -/
def eps : EReal := Ideal.ofBits .f32 0x2B8CBCCC#32

/-- The inner product of word row `r` with one filter tap. -/
def tap (xs : Fin 128 → Fin 768 → EReal) (wk : Fin 768 → EReal) (r : Fin 128) : EReal :=
  ∑ d : Fin 768, xs r d * wk d

/-- The width-2 convolution at row `l` (127 rows) and filter `f`: two taps, the bias, clamped below at 0. -/
def conv2 (xs : Fin 128 → Fin 768 → EReal) (w0 w1 : Fin 1024 → Fin 768 → EReal) (bias : Fin 1024 → EReal)
    (l : ℕ) (hl : l < 127) (f : Fin 1024) : EReal :=
  max (tap xs (w0 f) ⟨l, by omega⟩ + tap xs (w1 f) ⟨l + 1, by omega⟩ + bias f) 0

/-- The width-3 convolution at row `l` (126 rows). -/
def conv3 (xs : Fin 128 → Fin 768 → EReal) (w0 w1 w2 : Fin 1024 → Fin 768 → EReal) (bias : Fin 1024 → EReal)
    (l : ℕ) (hl : l < 126) (f : Fin 1024) : EReal :=
  max (tap xs (w0 f) ⟨l, by omega⟩ + tap xs (w1 f) ⟨l + 1, by omega⟩ + tap xs (w2 f) ⟨l + 2, by omega⟩ + bias f) 0

/-- The width-4 convolution at row `l` (125 rows). -/
def conv4 (xs : Fin 128 → Fin 768 → EReal) (w0 w1 w2 w3 : Fin 1024 → Fin 768 → EReal) (bias : Fin 1024 → EReal)
    (l : ℕ) (hl : l < 125) (f : Fin 1024) : EReal :=
  max (tap xs (w0 f) ⟨l, by omega⟩ + tap xs (w1 f) ⟨l + 1, by omega⟩ + tap xs (w2 f) ⟨l + 2, by omega⟩
    + tap xs (w3 f) ⟨l + 3, by omega⟩ + bias f) 0

/-- Row `l` of the code before normalisation. -/
def pre (xs : Fin 128 → Fin 768 → EReal) (a0 a1 : Fin 1024 → Fin 768 → EReal) (ba : Fin 1024 → EReal)
    (c0 c1 c2 : Fin 1024 → Fin 768 → EReal) (bc : Fin 1024 → EReal)
    (e0 e1 e2 e3 : Fin 1024 → Fin 768 → EReal) (be : Fin 1024 → EReal) (l : Fin 126) (f : Fin 1024) : EReal :=
  if h : l.val < 124 then
    max (max (conv2 xs a0 a1 ba l.val (by omega) f) (conv3 xs c0 c1 c2 bc l.val (by omega) f))
      (conv4 xs e0 e1 e2 e3 be l.val (by omega) f)
  else if l.val = 124 then max (conv2 xs a0 a1 ba 124 (by omega) f) (conv3 xs c0 c1 c2 bc 124 (by omega) f)
  else conv2 xs a0 a1 ba 125 (by omega) f

/-- A row of 1024 numbers divided by its Euclidean norm, the norm clamped below at `eps`. -/
def l2 (v : Fin 1024 → EReal) (f : Fin 1024) : EReal :=
  Ideal.div (v f) (max (Ideal.sqrt (∑ g : Fin 1024, v g * v g)) eps)

/-- Row `l` of the sentence's code. -/
def codeRow (xs : Fin 128 → Fin 768 → EReal) (a0 a1 : Fin 1024 → Fin 768 → EReal) (ba : Fin 1024 → EReal)
    (c0 c1 c2 : Fin 1024 → Fin 768 → EReal) (bc : Fin 1024 → EReal)
    (e0 e1 e2 e3 : Fin 1024 → Fin 768 → EReal) (be : Fin 1024 → EReal) (l : Fin 126) (f : Fin 1024) : EReal :=
  l2 (pre xs a0 a1 ba c0 c1 c2 bc e0 e1 e2 e3 be l) f

/-- The sentence head before normalisation: an affine map of the sentence vector. -/
def lin (s : Fin 768 → EReal) (wp : Fin 1024 → Fin 768 → EReal) (bp : Fin 1024 → EReal) (f : Fin 1024) : EReal :=
  (∑ d : Fin 768, s d * wp f d) + bp f

/-- The sentence head. -/
def sentRow (s : Fin 768 → EReal) (wp : Fin 1024 → Fin 768 → EReal) (bp : Fin 1024 → EReal) (f : Fin 1024) : EReal :=
  l2 (lin s wp bp) f

end Cert.TextConv

end
-- ==== Proof.SpecArr.lean ====
/-
  The encoder's two results for the whole batch of 128 sentences, as functions of the ten argument arrays.

  `codeArr` is the code laid out [sentence, row, filter]; `wordsOut` is the same with the last two axes swapped, the
  layout both programs return; `sentBlockArr` is the sentence heads laid out [sentence, 1, filter] and `sentOut`
  the same as [sentence, filter]. Filter bank arguments are [filter, tap, coordinate]; tap k of filter g is the row
  d ↦ W (g, k, d).
-/
import proofs.«167340_j84035330113648_2_alg».proof.Proof.Spec
import Idealize.ShloMosaic.Lib.ValueIdx

noncomputable section

namespace Cert.TextConv

open Idealize.ShloMosaic Idealize.ShloMosaic.ValueIdx

/-- Row `l`, filter `f` of the code of sentence `b`, from the argument arrays. -/
def codeAt (a0 : (⟨3, ![128, 128, 768]⟩ : Shape).Idx → EReal) (a2 : (⟨3, ![1024, 2, 768]⟩ : Shape).Idx → EReal)
    (a3 : (⟨1, ![1024]⟩ : Shape).Idx → EReal) (a4 : (⟨3, ![1024, 3, 768]⟩ : Shape).Idx → EReal)
    (a5 : (⟨1, ![1024]⟩ : Shape).Idx → EReal) (a6 : (⟨3, ![1024, 4, 768]⟩ : Shape).Idx → EReal)
    (a7 : (⟨1, ![1024]⟩ : Shape).Idx → EReal) (b : Fin 128) (l : Fin 126) (f : Fin 1024) : EReal :=
  codeRow (fun r d => a0 (ix3 b r d))
    (fun g d => a2 (ix3 g (0 : Fin 2) d)) (fun g d => a2 (ix3 g (1 : Fin 2) d)) (fun g => a3 (ix1 g))
    (fun g d => a4 (ix3 g (0 : Fin 3) d)) (fun g d => a4 (ix3 g (1 : Fin 3) d)) (fun g d => a4 (ix3 g (2 : Fin 3) d))
    (fun g => a5 (ix1 g))
    (fun g d => a6 (ix3 g (0 : Fin 4) d)) (fun g d => a6 (ix3 g (1 : Fin 4) d)) (fun g d => a6 (ix3 g (2 : Fin 4) d))
    (fun g d => a6 (ix3 g (3 : Fin 4) d)) (fun g => a7 (ix1 g)) l f

/-- The head of sentence `b` at filter `f`, from the argument arrays. -/
def sentAt (a1 : (⟨2, ![128, 768]⟩ : Shape).Idx → EReal) (a8 : (⟨2, ![1024, 768]⟩ : Shape).Idx → EReal)
    (a9 : (⟨1, ![1024]⟩ : Shape).Idx → EReal) (b : Fin 128) (f : Fin 1024) : EReal :=
  sentRow (fun d => a1 (ix2 b d)) (fun g d => a8 (ix2 g d)) (fun g => a9 (ix1 g)) f

/-- The code as [sentence, row, filter]. -/
def codeArr (a0 : (⟨3, ![128, 128, 768]⟩ : Shape).Idx → EReal) (a2 : (⟨3, ![1024, 2, 768]⟩ : Shape).Idx → EReal)
    (a3 : (⟨1, ![1024]⟩ : Shape).Idx → EReal) (a4 : (⟨3, ![1024, 3, 768]⟩ : Shape).Idx → EReal)
    (a5 : (⟨1, ![1024]⟩ : Shape).Idx → EReal) (a6 : (⟨3, ![1024, 4, 768]⟩ : Shape).Idx → EReal)
    (a7 : (⟨1, ![1024]⟩ : Shape).Idx → EReal) : (⟨3, ![128, 126, 1024]⟩ : Shape).Idx → EReal :=
  fun i => codeAt a0 a2 a3 a4 a5 a6 a7 (i 0) (i 1) (i 2)

/-- The code as [sentence, filter, row]: the first result. -/
def wordsOut (a0 : (⟨3, ![128, 128, 768]⟩ : Shape).Idx → EReal) (a2 : (⟨3, ![1024, 2, 768]⟩ : Shape).Idx → EReal)
    (a3 : (⟨1, ![1024]⟩ : Shape).Idx → EReal) (a4 : (⟨3, ![1024, 3, 768]⟩ : Shape).Idx → EReal)
    (a5 : (⟨1, ![1024]⟩ : Shape).Idx → EReal) (a6 : (⟨3, ![1024, 4, 768]⟩ : Shape).Idx → EReal)
    (a7 : (⟨1, ![1024]⟩ : Shape).Idx → EReal) : (⟨3, ![128, 1024, 126]⟩ : Shape).Idx → EReal :=
  fun i => codeAt a0 a2 a3 a4 a5 a6 a7 (i 0) (i 2) (i 1)

/-- The sentence heads as [sentence, 1, filter]. -/
def sentBlockArr (a1 : (⟨2, ![128, 768]⟩ : Shape).Idx → EReal) (a8 : (⟨2, ![1024, 768]⟩ : Shape).Idx → EReal)
    (a9 : (⟨1, ![1024]⟩ : Shape).Idx → EReal) : (⟨3, ![128, 1, 1024]⟩ : Shape).Idx → EReal :=
  fun i => sentAt a1 a8 a9 (i 0) (i 2)

/-- The sentence heads as [sentence, filter]: the second result. -/
def sentOut (a1 : (⟨2, ![128, 768]⟩ : Shape).Idx → EReal) (a8 : (⟨2, ![1024, 768]⟩ : Shape).Idx → EReal)
    (a9 : (⟨1, ![1024]⟩ : Shape).Idx → EReal) : (⟨2, ![128, 1024]⟩ : Shape).Idx → EReal :=
  fun i => sentAt a1 a8 a9 (i 0) (i 1)

end Cert.TextConv

end
-- ==== Proof.HostIn.lean ====
/-
  The arrays the kernel's region finds, read at an index.

  Before the region the program re-lays its arguments: each filter bank [1024, K, 768] is converted (the identity on
  the extended reals) and transposed to [K, 768, 1024], so its entry (k, d, g) is the argument's (g, k, d); the head's
  weight matrix [1024, 768] is transposed to [768, 1024]; each bias vector [1024] becomes a row [1, 1024]; the sentence
  vectors [128, 768] become [128, 1, 768].
-/
import proofs.«167340_j84035330113648_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.TextConv.Glue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- A [G, K, D] array transposed by the permutation [1, 2, 0] reads, at (k, d, g), the operand at (g, k, d). -/
theorem transpose120_apply {α : Type} {G K D : ℕ} (x : (⟨3, ![G, K, D]⟩ : Shape).Idx → α)
    (h : (⟨3, ![G, K, D]⟩ : Shape).Transposes [1, 2, 0] ⟨3, ![K, D, G]⟩) (k : Fin K) (d : Fin D) (g : Fin G) :
    transpose ⟨3, ![K, D, G]⟩ [1, 2, 0] x h (ix3 k d g) = x (ix3 g k d) :=
  transpose_apply [1, 2, 0] x h (ix3 k d g) (ix3 g k d) (fun b => match b with
    | ⟨0, _⟩ => rfl
    | ⟨1, _⟩ => rfl
    | ⟨2, _⟩ => rfl)

/-- An [A, D] array cast to [A, 1, D] reads, at (a, u, d), the operand at (a, d). -/
theorem shapeCast_ad_a1d_apply {α : Type} {A D : ℕ} (x : (⟨2, ![A, D]⟩ : Shape).Idx → α)
    (h : (⟨2, ![A, D]⟩ : Shape).ShapeCasts ⟨3, ![A, 1, D]⟩) (a : Fin A) (u : Fin 1) (d : Fin D) :
    shapeCast ⟨3, ![A, 1, D]⟩ x h (ix3 a u d) = x (ix2 a d) :=
  shapeCast_apply x h _ _ (by
    have hu : u.val = 0 := by omega
    rw [Shape.rowMajor_val_three, Shape.rowMajor_val_two]
    show a.val * D + d.val = (a.val * 1 + u.val) * D + d.val
    rw [hu, Nat.mul_one, Nat.add_zero])

/-- The width-2 filter bank as the region finds it. -/
theorem V_v1_apply (c : Dev nD) (k : Fin 2) (d : Fin 768) (g : Fin 1024) :
    (V m c main_v1 : S2x768x1024.Idx → EReal) (ix3 k d g) = (m ((c : Thread nD τ).loc main_arg2) : S1024x2x768.Idx → EReal) (ix3 g k d) := by
  have e : (V m c main_v1 : S2x768x1024.Idx → EReal)
      = transpose S2x768x1024 [1, 2, 0] (truncf (F := Ideal) .bf16 (m ((c : Thread nD τ).loc main_arg2)) bitsLt_bf16_f32) transposes_S1024x2x768_S2x768x1024_1_2_0 := by
    show StableHlo.after hostOps0 (fun b => m (c, b)) (Proc.devRef .tc main_v1) = _
    after_results
  rw [e]
  exact transpose120_apply _ transposes_S1024x2x768_S2x768x1024_1_2_0 k d g

/-- The width-3 filter bank as the region finds it. -/
theorem V_v3_apply (c : Dev nD) (k : Fin 3) (d : Fin 768) (g : Fin 1024) :
    (V m c main_v3 : S3x768x1024.Idx → EReal) (ix3 k d g) = (m ((c : Thread nD τ).loc main_arg4) : S1024x3x768.Idx → EReal) (ix3 g k d) := by
  have e : (V m c main_v3 : S3x768x1024.Idx → EReal)
      = transpose S3x768x1024 [1, 2, 0] (truncf (F := Ideal) .bf16 (m ((c : Thread nD τ).loc main_arg4)) bitsLt_bf16_f32) transposes_S1024x3x768_S3x768x1024_1_2_0 := by
    show StableHlo.after hostOps0 (fun b => m (c, b)) (Proc.devRef .tc main_v3) = _
    after_results
  rw [e]
  exact transpose120_apply _ transposes_S1024x3x768_S3x768x1024_1_2_0 k d g

/-- The width-4 filter bank as the region finds it. -/
theorem V_v5_apply (c : Dev nD) (k : Fin 4) (d : Fin 768) (g : Fin 1024) :
    (V m c main_v5 : S4x768x1024.Idx → EReal) (ix3 k d g) = (m ((c : Thread nD τ).loc main_arg6) : S1024x4x768.Idx → EReal) (ix3 g k d) := by
  have e : (V m c main_v5 : S4x768x1024.Idx → EReal)
      = transpose S4x768x1024 [1, 2, 0] (truncf (F := Ideal) .bf16 (m ((c : Thread nD τ).loc main_arg6)) bitsLt_bf16_f32) transposes_S1024x4x768_S4x768x1024_1_2_0 := by
    show StableHlo.after hostOps0 (fun b => m (c, b)) (Proc.devRef .tc main_v5) = _
    after_results
  rw [e]
  exact transpose120_apply _ transposes_S1024x4x768_S4x768x1024_1_2_0 k d g

/-- The head's weight matrix as the region finds it. -/
theorem V_v7_apply (c : Dev nD) (d : Fin 768) (g : Fin 1024) :
    (V m c main_v7 : S768x1024.Idx → EReal) (ix2 d g) = (m ((c : Thread nD τ).loc main_arg8) : S1024x768.Idx → EReal) (ix2 g d) := by
  have e : (V m c main_v7 : S768x1024.Idx → EReal)
      = transpose S768x1024 [1, 0] (truncf (F := Ideal) .bf16 (m ((c : Thread nD τ).loc main_arg8)) bitsLt_bf16_f32) transposes_S1024x768_S768x1024_1_0 := by
    show StableHlo.after hostOps0 (fun b => m (c, b)) (Proc.devRef .tc main_v7) = _
    after_results
  rw [e]
  exact transpose_ix2_apply _ transposes_S1024x768_S768x1024_1_0 d g

/-- The width-2 bias row as the region finds it. -/
theorem V_v8_apply (c : Dev nD) (u : Fin 1) (g : Fin 1024) :
    (V m c main_v8 : S1x1024.Idx → EReal) (ix2 u g) = (m ((c : Thread nD τ).loc main_arg3) : S1024.Idx → EReal) (ix1 g) := by
  have e : (V m c main_v8 : S1x1024.Idx → EReal)
      = shapeCast S1x1024 (m ((c : Thread nD τ).loc main_arg3) : S1024.Idx → EReal) shapeCasts_S1024_S1x1024 := by
    show StableHlo.after hostOps0 (fun b => m (c, b)) (Proc.devRef .tc main_v8) = _
    after_results
    rfl
  rw [e]
  exact shapeCast_a_1a_apply _ shapeCasts_S1024_S1x1024 u g

/-- The width-3 bias row as the region finds it. -/
theorem V_v9_apply (c : Dev nD) (u : Fin 1) (g : Fin 1024) :
    (V m c main_v9 : S1x1024.Idx → EReal) (ix2 u g) = (m ((c : Thread nD τ).loc main_arg5) : S1024.Idx → EReal) (ix1 g) := by
  have e : (V m c main_v9 : S1x1024.Idx → EReal)
      = shapeCast S1x1024 (m ((c : Thread nD τ).loc main_arg5) : S1024.Idx → EReal) shapeCasts_S1024_S1x1024 := by
    show StableHlo.after hostOps0 (fun b => m (c, b)) (Proc.devRef .tc main_v9) = _
    after_results
    rfl
  rw [e]
  exact shapeCast_a_1a_apply _ shapeCasts_S1024_S1x1024 u g

/-- The width-4 bias row as the region finds it. -/
theorem V_v10_apply (c : Dev nD) (u : Fin 1) (g : Fin 1024) :
    (V m c main_v10 : S1x1024.Idx → EReal) (ix2 u g) = (m ((c : Thread nD τ).loc main_arg7) : S1024.Idx → EReal) (ix1 g) := by
  have e : (V m c main_v10 : S1x1024.Idx → EReal)
      = shapeCast S1x1024 (m ((c : Thread nD τ).loc main_arg7) : S1024.Idx → EReal) shapeCasts_S1024_S1x1024 := by
    show StableHlo.after hostOps0 (fun b => m (c, b)) (Proc.devRef .tc main_v10) = _
    after_results
    rfl
  rw [e]
  exact shapeCast_a_1a_apply _ shapeCasts_S1024_S1x1024 u g

/-- The head's bias row as the region finds it. -/
theorem V_v11_apply (c : Dev nD) (u : Fin 1) (g : Fin 1024) :
    (V m c main_v11 : S1x1024.Idx → EReal) (ix2 u g) = (m ((c : Thread nD τ).loc main_arg9) : S1024.Idx → EReal) (ix1 g) := by
  have e : (V m c main_v11 : S1x1024.Idx → EReal)
      = shapeCast S1x1024 (m ((c : Thread nD τ).loc main_arg9) : S1024.Idx → EReal) shapeCasts_S1024_S1x1024 := by
    show StableHlo.after hostOps0 (fun b => m (c, b)) (Proc.devRef .tc main_v11) = _
    after_results
    rfl
  rw [e]
  exact shapeCast_a_1a_apply _ shapeCasts_S1024_S1x1024 u g

/-- The sentence vectors as the region finds them. -/
theorem V_v12_apply (c : Dev nD) (b : Fin 128) (u : Fin 1) (d : Fin 768) :
    (V m c main_v12 : S128x1x768.Idx → EReal) (ix3 b u d) = (m ((c : Thread nD τ).loc main_arg1) : S128x768.Idx → EReal) (ix2 b d) := by
  have e : (V m c main_v12 : S128x1x768.Idx → EReal)
      = shapeCast S128x1x768 (m ((c : Thread nD τ).loc main_arg1) : S128x768.Idx → EReal) shapeCasts_S128x768_S128x1x768 := by
    show StableHlo.after hostOps0 (fun b => m (c, b)) (Proc.devRef .tc main_v12) = _
    after_results
    rfl
  rw [e]
  exact shapeCast_ad_a1d_apply _ shapeCasts_S128x768_S128x1x768 b u d

end Cert.TextConv.Glue

end
-- ==== Proof.Blocks.lean ====
/-
  Each input window's block at a grid point, read at an index.

  The grid has 32 points. At point t the word rows' window holds sentences 4t .. 4t+3 (block index t on the batch
  axis), the sentence vectors' window the same four sentences, and the eight weight and bias windows their whole
  array (block index 0 on every axis). An element of a block sits in its array, on each axis, at the block index times
  the block's size plus its own coordinate.
-/
import proofs.«167340_j84035330113648_2_alg».proof.Proof.Gen.KernelIdeal.Frame
import proofs.«167340_j84035330113648_2_alg».proof.Proof.HostIn
import Idealize.ShloMosaic.Lib.ValueIdx
import Idealize.ShloMosaic.Lib.Pipeline.Value

noncomputable section

namespace Cert.TextConv.Glue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The printed index maps, decided once over the 32 grid points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0) :=
  (by decide +kernel : ∀ t : Fin grid0.N, _)

/-- A grid point is below 32. -/
theorem point_lt (t : Fin cfg0.N) : t.val < 32 := lt_of_lt_of_eq t.isLt N_0

/-- Sentence p of the block at point t is sentence 4t + p of the batch. -/
def sentence (t : Fin cfg0.N) (p : Fin 4) : Fin 128 := ⟨4 * t.val + p.val, by have := point_lt t; omega⟩

/-- The word rows' block. -/
theorem blk0_apply (c : Dev nD) (t : Fin cfg0.N) (p : Fin 4) (r : Fin 128) (d : Fin 768) :
    (iblk m c 0 t : S4x128x768.Idx → EReal) (ix3 p r d) = (m ((c : Thread nD τ).loc main_arg0) : S128x128x768.Idx → EReal) (ix3 (sentence t p) r d) := by
  show V m c main_arg0 (((cfg0.win 0).blk t).view.emb (ix3 p r d)) = _
  rw [V_main_arg0]
  obtain ⟨⟨e0, e1, e2⟩, -⟩ := idx_facts t
  refine congrArg _ ?_
  funext a; apply Fin.ext
  match a with
  | ⟨0, _⟩ => show win0_0.index t (0 : Fin 3) * 4 + 1 * p.val = 4 * t.val + p.val; omega
  | ⟨1, _⟩ => show win0_0.index t (1 : Fin 3) * 128 + 1 * r.val = r.val; omega
  | ⟨2, _⟩ => show win0_0.index t (2 : Fin 3) * 768 + 1 * d.val = d.val; omega

/-- The sentence vectors' block. -/
theorem blk1_apply (c : Dev nD) (t : Fin cfg0.N) (p : Fin 4) (u : Fin 1) (d : Fin 768) :
    (iblk m c 1 t : S4x1x768.Idx → EReal) (ix3 p u d) = (m ((c : Thread nD τ).loc main_arg1) : S128x768.Idx → EReal) (ix2 (sentence t p) d) := by
  show V m c main_v12 (((cfg0.win 1).blk t).view.emb (ix3 p u d)) = _
  obtain ⟨-, ⟨e0, e1, e2⟩, -⟩ := idx_facts t
  refine Eq.trans (congrArg _ ?_) (V_v12_apply m c (sentence t p) u d)
  funext a; apply Fin.ext
  match a with
  | ⟨0, _⟩ => show win0_1.index t (0 : Fin 3) * 4 + 1 * p.val = 4 * t.val + p.val; omega
  | ⟨1, _⟩ => show win0_1.index t (1 : Fin 3) * 1 + 1 * u.val = u.val; omega
  | ⟨2, _⟩ => show win0_1.index t (2 : Fin 3) * 768 + 1 * d.val = d.val; omega

/-- The width-2 filter bank's block is the whole transposed bank. -/
theorem blk2_apply (c : Dev nD) (t : Fin cfg0.N) (k : Fin 2) (d : Fin 768) (g : Fin 1024) :
    (iblk m c 2 t : S2x768x1024.Idx → EReal) (ix3 k d g) = (m ((c : Thread nD τ).loc main_arg2) : S1024x2x768.Idx → EReal) (ix3 g k d) := by
  show V m c main_v1 (((cfg0.win 2).blk t).view.emb (ix3 k d g)) = _
  obtain ⟨-, -, ⟨e0, e1, e2⟩, -⟩ := idx_facts t
  refine Eq.trans (congrArg _ ?_) (V_v1_apply m c k d g)
  funext a; apply Fin.ext
  match a with
  | ⟨0, _⟩ => show win0_2.index t (0 : Fin 3) * 2 + 1 * k.val = k.val; omega
  | ⟨1, _⟩ => show win0_2.index t (1 : Fin 3) * 768 + 1 * d.val = d.val; omega
  | ⟨2, _⟩ => show win0_2.index t (2 : Fin 3) * 1024 + 1 * g.val = g.val; omega

/-- The width-3 filter bank's block. -/
theorem blk3_apply (c : Dev nD) (t : Fin cfg0.N) (k : Fin 3) (d : Fin 768) (g : Fin 1024) :
    (iblk m c 3 t : S3x768x1024.Idx → EReal) (ix3 k d g) = (m ((c : Thread nD τ).loc main_arg4) : S1024x3x768.Idx → EReal) (ix3 g k d) := by
  show V m c main_v3 (((cfg0.win 3).blk t).view.emb (ix3 k d g)) = _
  obtain ⟨-, -, -, ⟨e0, e1, e2⟩, -⟩ := idx_facts t
  refine Eq.trans (congrArg _ ?_) (V_v3_apply m c k d g)
  funext a; apply Fin.ext
  match a with
  | ⟨0, _⟩ => show win0_3.index t (0 : Fin 3) * 3 + 1 * k.val = k.val; omega
  | ⟨1, _⟩ => show win0_3.index t (1 : Fin 3) * 768 + 1 * d.val = d.val; omega
  | ⟨2, _⟩ => show win0_3.index t (2 : Fin 3) * 1024 + 1 * g.val = g.val; omega

/-- The width-4 filter bank's block. -/
theorem blk4_apply (c : Dev nD) (t : Fin cfg0.N) (k : Fin 4) (d : Fin 768) (g : Fin 1024) :
    (iblk m c 4 t : S4x768x1024.Idx → EReal) (ix3 k d g) = (m ((c : Thread nD τ).loc main_arg6) : S1024x4x768.Idx → EReal) (ix3 g k d) := by
  show V m c main_v5 (((cfg0.win 4).blk t).view.emb (ix3 k d g)) = _
  obtain ⟨-, -, -, -, ⟨e0, e1, e2⟩, -⟩ := idx_facts t
  refine Eq.trans (congrArg _ ?_) (V_v5_apply m c k d g)
  funext a; apply Fin.ext
  match a with
  | ⟨0, _⟩ => show win0_4.index t (0 : Fin 3) * 4 + 1 * k.val = k.val; omega
  | ⟨1, _⟩ => show win0_4.index t (1 : Fin 3) * 768 + 1 * d.val = d.val; omega
  | ⟨2, _⟩ => show win0_4.index t (2 : Fin 3) * 1024 + 1 * g.val = g.val; omega

/-- The head's weight matrix's block. -/
theorem blk5_apply (c : Dev nD) (t : Fin cfg0.N) (d : Fin 768) (g : Fin 1024) :
    (iblk m c 5 t : S768x1024.Idx → EReal) (ix2 d g) = (m ((c : Thread nD τ).loc main_arg8) : S1024x768.Idx → EReal) (ix2 g d) := by
  show V m c main_v7 (((cfg0.win 5).blk t).view.emb (ix2 d g)) = _
  obtain ⟨-, -, -, -, -, ⟨e0, e1⟩, -⟩ := idx_facts t
  refine Eq.trans (congrArg _ ?_) (V_v7_apply m c d g)
  funext a; apply Fin.ext
  match a with
  | ⟨0, _⟩ => show win0_5.index t (0 : Fin 2) * 768 + 1 * d.val = d.val; omega
  | ⟨1, _⟩ => show win0_5.index t (1 : Fin 2) * 1024 + 1 * g.val = g.val; omega

/-- The width-2 bias row's block. -/
theorem blk6_apply (c : Dev nD) (t : Fin cfg0.N) (u : Fin 1) (g : Fin 1024) :
    (iblk m c 6 t : S1x1024.Idx → EReal) (ix2 u g) = (m ((c : Thread nD τ).loc main_arg3) : S1024.Idx → EReal) (ix1 g) := by
  show V m c main_v8 (((cfg0.win 6).blk t).view.emb (ix2 u g)) = _
  obtain ⟨-, -, -, -, -, -, ⟨e0, e1⟩, -⟩ := idx_facts t
  refine Eq.trans (congrArg _ ?_) (V_v8_apply m c u g)
  funext a; apply Fin.ext
  match a with
  | ⟨0, _⟩ => show win0_6.index t (0 : Fin 2) * 1 + 1 * u.val = u.val; omega
  | ⟨1, _⟩ => show win0_6.index t (1 : Fin 2) * 1024 + 1 * g.val = g.val; omega

/-- The width-3 bias row's block. -/
theorem blk7_apply (c : Dev nD) (t : Fin cfg0.N) (u : Fin 1) (g : Fin 1024) :
    (iblk m c 7 t : S1x1024.Idx → EReal) (ix2 u g) = (m ((c : Thread nD τ).loc main_arg5) : S1024.Idx → EReal) (ix1 g) := by
  show V m c main_v9 (((cfg0.win 7).blk t).view.emb (ix2 u g)) = _
  obtain ⟨-, -, -, -, -, -, -, ⟨e0, e1⟩, -⟩ := idx_facts t
  refine Eq.trans (congrArg _ ?_) (V_v9_apply m c u g)
  funext a; apply Fin.ext
  match a with
  | ⟨0, _⟩ => show win0_7.index t (0 : Fin 2) * 1 + 1 * u.val = u.val; omega
  | ⟨1, _⟩ => show win0_7.index t (1 : Fin 2) * 1024 + 1 * g.val = g.val; omega

/-- The width-4 bias row's block. -/
theorem blk8_apply (c : Dev nD) (t : Fin cfg0.N) (u : Fin 1) (g : Fin 1024) :
    (iblk m c 8 t : S1x1024.Idx → EReal) (ix2 u g) = (m ((c : Thread nD τ).loc main_arg7) : S1024.Idx → EReal) (ix1 g) := by
  show V m c main_v10 (((cfg0.win 8).blk t).view.emb (ix2 u g)) = _
  obtain ⟨-, -, -, -, -, -, -, -, ⟨e0, e1⟩, -⟩ := idx_facts t
  refine Eq.trans (congrArg _ ?_) (V_v10_apply m c u g)
  funext a; apply Fin.ext
  match a with
  | ⟨0, _⟩ => show win0_8.index t (0 : Fin 2) * 1 + 1 * u.val = u.val; omega
  | ⟨1, _⟩ => show win0_8.index t (1 : Fin 2) * 1024 + 1 * g.val = g.val; omega

/-- The head's bias row's block. -/
theorem blk9_apply (c : Dev nD) (t : Fin cfg0.N) (u : Fin 1) (g : Fin 1024) :
    (iblk m c 9 t : S1x1024.Idx → EReal) (ix2 u g) = (m ((c : Thread nD τ).loc main_arg9) : S1024.Idx → EReal) (ix1 g) := by
  show V m c main_v11 (((cfg0.win 9).blk t).view.emb (ix2 u g)) = _
  obtain ⟨-, -, -, -, -, -, -, -, -, ⟨e0, e1⟩, -⟩ := idx_facts t
  refine Eq.trans (congrArg _ ?_) (V_v11_apply m c u g)
  funext a; apply Fin.ext
  match a with
  | ⟨0, _⟩ => show win0_9.index t (0 : Fin 2) * 1 + 1 * u.val = u.val; omega
  | ⟨1, _⟩ => show win0_9.index t (1 : Fin 2) * 1024 + 1 * g.val = g.val; omega

end Cert.TextConv.Glue

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.LibLayoutUnit.lean ====
/-
  Unit axes put in front of a vector or a matrix and copied along, read at an index.

  Casting `[C]` to `[1, 1, C]` puts two unit axes in front: entry `(0, 0, c)` is entry `c`, both having row-major
  position `c`. Broadcasting `[1, 1, C]` to `[A, B, C]` copies entry `(0, 0, c)` to every `(a, b, c)`, and broadcasting
  `[1, B, C]` to `[A, B, C]` copies entry `(0, b, c)` to every `(a, b, c)`.
-/
import Idealize.ShloMosaic.Lib.Pipeline.Value
import Idealize.ShloMosaic.Lib.ValueIdx

namespace Cert.LayoutUnit

open Idealize.ShloMosaic Idealize.ShloMosaic.ValueIdx

variable {α : Type}

/-- `[C]` cast to `[1, 1, C]`: at `(u, v, c)`, the operand at `c`, whatever the unit coordinates `u` and `v`. -/
theorem shapeCast_c_11c_apply {C : ℕ} (x : (⟨1, ![C]⟩ : Shape).Idx → α)
    (h : (⟨1, ![C]⟩ : Shape).ShapeCasts ⟨3, ![1, 1, C]⟩) (u v : Fin 1) (c : Fin C) :
    shapeCast ⟨3, ![1, 1, C]⟩ x h (ix3 u v c) = x (ix1 c) :=
  shapeCast_apply x h _ _ (by
    have hu : u.val = 0 := by omega
    have hv : v.val = 0 := by omega
    rw [Shape.rowMajor_val_one, Shape.rowMajor_val_three]
    show c.val = (u.val * 1 + v.val) * C + c.val
    rw [hu, hv]
    simp)

/-- `[1, 1, C]` broadcast to `[A, B, C]`: at `(a, b, c)`, the operand at `(0, 0, c)`. -/
theorem broadcastTo_11c_abc_apply {A B C : ℕ} (v : (⟨3, ![1, 1, C]⟩ : Shape).Idx → α)
    (h : (⟨3, ![1, 1, C]⟩ : Shape).Broadcasts ⟨3, ![A, B, C]⟩) (a : Fin A) (b : Fin B) (c : Fin C) :
    broadcastTo ⟨3, ![A, B, C]⟩ v h (ix3 a b c) = v (ix3 (0 : Fin 1) (0 : Fin 1) c) := by
  refine broadcastTo_apply v h (ix3 a b c) (ix3 (0 : Fin 1) (0 : Fin 1) c) fun ax => ?_
  match ax with
  | ⟨0, _⟩ => rfl
  | ⟨1, _⟩ => rfl
  | ⟨2, _⟩ =>
    show c.val = if C = 1 then 0 else c.val
    split
    · have := c.isLt; omega
    · rfl

/-- `[1, B, C]` broadcast to `[A, B, C]`: at `(a, b, c)`, the operand at `(0, b, c)`. -/
theorem broadcastTo_1bc_abc_apply {A B C : ℕ} (v : (⟨3, ![1, B, C]⟩ : Shape).Idx → α)
    (h : (⟨3, ![1, B, C]⟩ : Shape).Broadcasts ⟨3, ![A, B, C]⟩) (a : Fin A) (b : Fin B) (c : Fin C) :
    broadcastTo ⟨3, ![A, B, C]⟩ v h (ix3 a b c) = v (ix3 (0 : Fin 1) b c) := by
  refine broadcastTo_apply v h (ix3 a b c) (ix3 (0 : Fin 1) b c) fun ax => ?_
  match ax with
  | ⟨0, _⟩ => rfl
  | ⟨1, _⟩ =>
    show b.val = if B = 1 then 0 else b.val
    split
    · have := b.isLt; omega
    · rfl
  | ⟨2, _⟩ =>
    show c.val = if C = 1 then 0 else c.val
    split
    · have := c.isLt; omega
    · rfl

end Cert.LayoutUnit
-- ==== Proof.KConv.lean ====
/-
  The three convolutions as the kernel's body computes them on ONE block of four sentences, read at an index.

  The body casts the block of word rows to a matrix of 4·L rows, multiplies it by one filter tap (a 768 × 1024 matrix,
  loaded as a one-slab array), casts the product back to [4, L, 1024] and adds the taps up, then the bias row, and
  clamps below at 0. Row p·L + l of the matrix is word row l + k of sentence p for tap k, so the entry at (p, l, f) is
  the convolution of the specification for sentence p at row l and filter f.
-/
import proofs.«167340_j84035330113648_2_alg».proof.Proof.Gen.KernelIdeal.Skeleton
import proofs.«167340_j84035330113648_2_alg».proof.Proof.Spec
import proofs.«167340_j84035330113648_2_alg».proof.Proof.LibMatmul
import proofs.«167340_j84035330113648_2_alg».proof.Proof.LibLayout3
import proofs.«167340_j84035330113648_2_alg».proof.Proof.LibLayoutUnit
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.TextConv.Kernel

open Idealize.ShloMosaic Idealize.ShloMosaic.ValueIdx Cert.KernelIdeal Cert.KernelIdeal.Gen Cert.TextConv

/-- The width-4 convolution as the body computes it (clamped below at 0), from the block of word rows, the four
    loaded taps and the bias row: the first two taps' sum, then the third and the fourth tap, the bias, the clamp. -/
def conv4val (v0 : Vec Ideal S4x128x768 .f32) (v66 v73 v80 v87 : Vec Ideal S1x768x1024 .bf16) (v92 : Vec Ideal S1x1024 .f32) :
    FVec Ideal S4x125x1024 .f32 :=
  have v1 : FVec Ideal S4x128x768 .bf16 := k0_pay3 v0
  have v77 : FVec Ideal S4x125x1024 .f32 := k0_pay11 v1 v66 v73
  have v78 : FVec Ideal S4x125x768 .bf16 := k0_pay12 v1
  have v79 : FVec Ideal S500x768 .bf16 := shapeCast S500x768 v78 shapeCasts_S4x125x768_S500x768
  have v81 : FVec Ideal S768x1024 .bf16 := shapeCast S768x1024 v80 shapeCasts_S1x768x1024_S768x1024
  have cst_39 : FVec Ideal S500x1024 .f32 := constant S500x1024 .f32 0x00000000#32
  have v82 : FVec Ideal S500x1024 .f32 := matmul dot_S500x768_S768x1024_S500x1024_1_0_0_1_n_n none v79 v81 cst_39
  have v83 : FVec Ideal S4x125x1024 .f32 := shapeCast S4x125x1024 v82 shapeCasts_S500x1024_S4x125x1024
  have v84 : FVec Ideal S4x125x1024 .f32 := addf v77 v83
  have v85 : FVec Ideal S4x125x768 .bf16 := extractStridedSlice S4x125x768 ![0, 3, 0] v1 slices_S4x128x768_o0_3_0_S4x125x768
  have v86 : FVec Ideal S500x768 .bf16 := shapeCast S500x768 v85 shapeCasts_S4x125x768_S500x768
  have v88 : FVec Ideal S768x1024 .bf16 := shapeCast S768x1024 v87 shapeCasts_S1x768x1024_S768x1024
  have cst_42 : FVec Ideal S500x1024 .f32 := constant S500x1024 .f32 0x00000000#32
  have v89 : FVec Ideal S500x1024 .f32 := matmul dot_S500x768_S768x1024_S500x1024_1_0_0_1_n_n none v86 v88 cst_42
  have v90 : FVec Ideal S4x125x1024 .f32 := shapeCast S4x125x1024 v89 shapeCasts_S500x1024_S4x125x1024
  have v91 : FVec Ideal S4x125x1024 .f32 := addf v84 v90
  have v93 : FVec Ideal S1x1024 .f32 := shapeCast S1x1024 v92 shapeCasts_S1x1024_S1x1024
  have v94 : FVec Ideal S1x1x1024 .f32 := shapeCast S1x1x1024 v93 shapeCasts_S1x1024_S1x1x1024
  have v95 : FVec Ideal S4x125x1024 .f32 := broadcastTo S4x125x1024 v94 broadcasts_S1x1x1024_S4x125x1024
  have v96 : FVec Ideal S4x125x1024 .f32 := addf v91 v95
  have cst_45 : Ideal .f32 := Scalar.ofBits .f32 0x00000000#32
  have v97 : FVec Ideal S4x125x1024 .f32 := broadcast S4x125x1024 cst_45
  have v98 : FVec Ideal S4x125x1024 .f32 := maximumf v96 v97
  v98

/-- A [4, 124, 1024] array with every row divided by its Euclidean norm clamped below, as the body spells it. -/
def norm124 (v100 : FVec Ideal S4x124x1024 .f32) : FVec Ideal S4x124x1024 .f32 :=
  have v101 : FVec Ideal S4x124x1024 .f32 := mulf v100 v100
  have v102 : FVec Ideal S4x124 .f32 := multiReduction .add [2] S4x124 v101 0x00000000#32 reduces_S4x124x1024_S4x124 (.inl rfl) rfl
  have v103 : FVec Ideal S4x124x1 .f32 := shapeCast S4x124x1 v102 shapeCasts_S4x124_S4x124x1
  have v104 : FVec Ideal S4x124x1 .f32 := sqrt v103
  have cst_47 : Ideal .f32 := Scalar.ofBits .f32 0x2B8CBCCC#32
  have v105 : FVec Ideal S4x124x1 .f32 := broadcast S4x124x1 cst_47
  have v106 : FVec Ideal S4x124x1 .f32 := maximumf v104 v105
  have v107 : FVec Ideal S4x124x1024 .f32 := broadcastTo S4x124x1024 v106 broadcasts_S4x124x1_S4x124x1024
  have v108 : FVec Ideal S4x124x1024 .f32 := divf v100 v107
  v108

/-- The body's last payload of the main rows is the normalisation of the maximum of the running maximum with the
    first 124 rows of the width-4 convolution. -/
theorem pay13_eq (v0 : Vec Ideal S4x128x768 .f32) (v57 : FVec Ideal S4x124x1024 .f32)
    (v66 v73 v80 v87 : Vec Ideal S1x768x1024 .bf16) (v92 : Vec Ideal S1x1024 .f32) :
    k0_pay13 (F := Ideal) (k0_pay3 v0) v57 (k0_pay11 (k0_pay3 v0) v66 v73) (k0_pay12 (k0_pay3 v0)) v80 v87 v92
      = norm124 (maximumf v57
          (extractStridedSlice S4x124x1024 ![0, 0, 0] (conv4val v0 v66 v73 v80 v87 v92) slices_S4x125x1024_o0_0_0_S4x124x1024)) :=
  rfl

/-- One tap of a convolution as the body computes it, for any number of rows L and any row offset o: the block of word
    rows cut along the row axis from o, cast to a matrix of M = 4·L rows, multiplied by the tap's 768 × 1024 matrix (a
    one-slab array cast to a matrix) into the zero matrix, and cast back to [4, L, 1024]. Row p·L + l of the matrix is
    word row r = o + l of sentence p, so the entry at (p, l, f) is the inner product of that word row with column f of
    the tap. -/
theorem conv_tap_apply {L M : ℕ} (o : ℕ) (D : DotDims ⟨2, ![M, 768]⟩ ⟨2, ![768, 1024]⟩ ⟨2, ![M, 1024]⟩)
    (hD : D = DotDims.plain M 768 1024)
    (v1 : FVec Ideal ⟨3, ![4, 128, 768]⟩ .bf16) (w : FVec Ideal ⟨3, ![1, 768, 1024]⟩ .bf16)
    (hs : (⟨3, ![4, 128, 768]⟩ : Shape).Slices ![0, o, 0] ⟨3, ![4, L, 768]⟩)
    (hc : (⟨3, ![4, L, 768]⟩ : Shape).ShapeCasts ⟨2, ![M, 768]⟩)
    (hw : (⟨3, ![1, 768, 1024]⟩ : Shape).ShapeCasts ⟨2, ![768, 1024]⟩)
    (hc' : (⟨2, ![M, 1024]⟩ : Shape).ShapeCasts ⟨3, ![4, L, 1024]⟩)
    (hM : M = 4 * L) (p : Fin 4) (l : ℕ) (hl : l < L) (f : Fin 1024) (r : Fin 128) (hr : r.val = o + l) :
    shapeCast ⟨3, ![4, L, 1024]⟩
        (matmul (F := Ideal) D none
          (shapeCast ⟨2, ![M, 768]⟩ (extractStridedSlice ⟨3, ![4, L, 768]⟩ ![0, o, 0] v1 hs) hc)
          (shapeCast ⟨2, ![768, 1024]⟩ w hw) (constant ⟨2, ![M, 1024]⟩ .f32 0x00000000#32)) hc'
        (ix3 p (⟨l, hl⟩ : Fin L) f)
      = ∑ d : Fin 768, v1 (ix3 p r d) * w (ix3 (0 : Fin 1) d f) := by
  subst hD
  have hq : p.val * L + l < M := by
    have := p.isLt
    subst hM
    nlinarith
  refine (Cert.Layout3.shapeCast_mk_abk_apply _ hc' p (⟨l, hl⟩ : Fin L) f (⟨p.val * L + l, hq⟩ : Fin M) rfl).trans ?_
  refine (Cert.MatOps.matmul_plain_zero_apply none _ _ _ f).trans ?_
  refine Finset.sum_congr rfl fun d _ => ?_
  refine congrArg₂ (· * ·) ?_ ?_
  · refine (Cert.Layout3.shapeCast_abk_mk_apply _ hc p (⟨l, hl⟩ : Fin L) d (⟨p.val * L + l, hq⟩ : Fin M) rfl).trans ?_
    exact slice3_axis1_apply o v1 hs p (⟨l, hl⟩ : Fin L) d r hr
  · exact shapeCast_1ab_ab_apply w hw d f

/-- The bias row put in front of two unit axes and copied to every sentence and row. -/
theorem conv_bias_apply {L : ℕ} (b : FVec Ideal ⟨2, ![1, 1024]⟩ .f32)
    (h1 : (⟨2, ![1, 1024]⟩ : Shape).ShapeCasts ⟨2, ![1, 1024]⟩)
    (h2 : (⟨2, ![1, 1024]⟩ : Shape).ShapeCasts ⟨3, ![1, 1, 1024]⟩)
    (h3 : (⟨3, ![1, 1, 1024]⟩ : Shape).Broadcasts ⟨3, ![4, L, 1024]⟩) (p : Fin 4) (l : Fin L) (f : Fin 1024) :
    broadcastTo ⟨3, ![4, L, 1024]⟩ (shapeCast ⟨3, ![1, 1, 1024]⟩ (shapeCast ⟨2, ![1, 1024]⟩ b h1) h2) h3 (ix3 p l f)
      = b (ix2 (0 : Fin 1) f) := by
  refine (Cert.LayoutUnit.broadcastTo_11c_abc_apply _ h3 p l f).trans ?_
  refine (shapeCast_ab_1ab_apply _ h2 (0 : Fin 1) (0 : Fin 1) f).trans ?_
  rw [shapeCast_self]

/-- The zero word is 0, so a running sum that starts at the zero word adds nothing. -/
theorem conv_zero_word_add (x y : EReal) (h : x = y) : (Scalar.ofBits .f32 0x00000000#32 : Ideal .f32) + x = y := by
  show Ideal.ofBits .f32 0x00000000#32 + x = y
  rw [Ideal.ofBits_zero_f32, zero_add, h]

/-- The zero word read as an extended real. -/
theorem conv_zero_word : (Scalar.ofBits .f32 0x00000000#32 : Ideal .f32) = (0 : EReal) := Ideal.ofBits_zero_f32

/-- The body's width-2 convolution at (p, l, f) is the specification's for sentence p of the block. -/
theorem kconv2 (v0 : Vec Ideal S4x128x768 .f32) (v5 v12 : Vec Ideal S1x768x1024 .bf16) (v17 : Vec Ideal S1x1024 .f32)
    (p : Fin 4) (l : ℕ) (hl : l < 127) (f : Fin 1024) :
    k0_pay4 (F := Ideal) v0 v5 v12 v17 (ix3 p (⟨l, hl⟩ : Fin 127) f)
      = conv2 (fun r d => v0 (ix3 p r d)) (fun g d => v5 (ix3 (0 : Fin 1) d g)) (fun g d => v12 (ix3 (0 : Fin 1) d g))
          (fun g => v17 (ix2 (0 : Fin 1) g)) l hl f := by
  unfold k0_pay4 conv2 tap
  simp only [maximumf_apply, addf_apply, broadcast_apply]
  refine congrArg₂ max (congrArg₂ (· + ·) (congrArg₂ (· + ·) ?_ ?_) ?_) conv_zero_word
  · exact conv_zero_word_add _ _ (conv_tap_apply (L := 127) (M := 508) 0 _ rfl (k0_pay3 v0) v5 _ _ _ _ rfl p l hl f ⟨l, by omega⟩ (Nat.zero_add l).symm)
  · exact conv_tap_apply (L := 127) (M := 508) 1 _ rfl (k0_pay3 v0) v12 _ _ _ _ rfl p l hl f ⟨l + 1, by omega⟩ (Nat.add_comm l 1)
  · exact conv_bias_apply (L := 127) v17 _ _ _ p ⟨l, hl⟩ f

/-- The body's width-3 convolution at (p, l, f). -/
theorem kconv3 (v0 : Vec Ideal S4x128x768 .f32) (v29 v36 v43 : Vec Ideal S1x768x1024 .bf16) (v48 : Vec Ideal S1x1024 .f32)
    (p : Fin 4) (l : ℕ) (hl : l < 126) (f : Fin 1024) :
    k0_pay8 (F := Ideal) (k0_pay3 v0) (k0_pay6 v0 v29) (k0_pay7 v0) v36 v43 v48 (ix3 p (⟨l, hl⟩ : Fin 126) f)
      = conv3 (fun r d => v0 (ix3 p r d)) (fun g d => v29 (ix3 (0 : Fin 1) d g)) (fun g d => v36 (ix3 (0 : Fin 1) d g))
          (fun g d => v43 (ix3 (0 : Fin 1) d g)) (fun g => v48 (ix2 (0 : Fin 1) g)) l hl f := by
  unfold k0_pay8 k0_pay6 k0_pay7 conv3 tap
  simp only [maximumf_apply, addf_apply, broadcast_apply]
  refine congrArg₂ max (congrArg₂ (· + ·) (congrArg₂ (· + ·) (congrArg₂ (· + ·) ?_ ?_) ?_) ?_) conv_zero_word
  · exact conv_zero_word_add _ _ (conv_tap_apply (L := 126) (M := 504) 0 _ rfl (k0_pay3 v0) v29 _ _ _ _ rfl p l hl f ⟨l, by omega⟩ (Nat.zero_add l).symm)
  · exact conv_tap_apply (L := 126) (M := 504) 1 _ rfl (k0_pay3 v0) v36 _ _ _ _ rfl p l hl f ⟨l + 1, by omega⟩ (Nat.add_comm l 1)
  · exact conv_tap_apply (L := 126) (M := 504) 2 _ rfl (k0_pay3 v0) v43 _ _ _ _ rfl p l hl f ⟨l + 2, by omega⟩ (Nat.add_comm l 2)
  · exact conv_bias_apply (L := 126) v48 _ _ _ p ⟨l, hl⟩ f

/-- The body's width-4 convolution at (p, l, f). -/
theorem kconv4 (v0 : Vec Ideal S4x128x768 .f32) (v66 v73 v80 v87 : Vec Ideal S1x768x1024 .bf16) (v92 : Vec Ideal S1x1024 .f32)
    (p : Fin 4) (l : ℕ) (hl : l < 125) (f : Fin 1024) :
    conv4val v0 v66 v73 v80 v87 v92 (ix3 p (⟨l, hl⟩ : Fin 125) f)
      = conv4 (fun r d => v0 (ix3 p r d)) (fun g d => v66 (ix3 (0 : Fin 1) d g)) (fun g d => v73 (ix3 (0 : Fin 1) d g))
          (fun g d => v80 (ix3 (0 : Fin 1) d g)) (fun g d => v87 (ix3 (0 : Fin 1) d g)) (fun g => v92 (ix2 (0 : Fin 1) g)) l hl f := by
  unfold conv4val k0_pay11 k0_pay12 conv4 tap
  simp only [maximumf_apply, addf_apply, broadcast_apply]
  refine congrArg₂ max
    (congrArg₂ (· + ·) (congrArg₂ (· + ·) (congrArg₂ (· + ·) (congrArg₂ (· + ·) ?_ ?_) ?_) ?_) ?_) conv_zero_word
  · exact conv_zero_word_add _ _ (conv_tap_apply (L := 125) (M := 500) 0 _ rfl (k0_pay3 v0) v66 _ _ _ _ rfl p l hl f ⟨l, by omega⟩ (Nat.zero_add l).symm)
  · exact conv_tap_apply (L := 125) (M := 500) 1 _ rfl (k0_pay3 v0) v73 _ _ _ _ rfl p l hl f ⟨l + 1, by omega⟩ (Nat.add_comm l 1)
  · exact conv_tap_apply (L := 125) (M := 500) 2 _ rfl (k0_pay3 v0) v80 _ _ _ _ rfl p l hl f ⟨l + 2, by omega⟩ (Nat.add_comm l 2)
  · exact conv_tap_apply (L := 125) (M := 500) 3 _ rfl (k0_pay3 v0) v87 _ _ _ _ rfl p l hl f ⟨l + 3, by omega⟩ (Nat.add_comm l 3)
  · exact conv_bias_apply (L := 125) v92 _ _ _ p ⟨l, hl⟩ f

end Cert.TextConv.Kernel

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KCode.lean ====
/-
  What the kernel's body leaves in its two output blocks, read at an index.

  The first output block holds, for each of the four sentences of the block, the 126 rows of its code: rows 0..123 are
  the normalised maximum of the three convolutions, row 124 the normalised maximum of the widths 2 and 3 at row 124,
  row 125 the normalised width-2 convolution at row 125; the body normalises the three pieces separately and joins
  them, and a row's norm only depends on that row, so each entry is the specification's. The second output block holds
  the sentence heads.
-/
import proofs.«167340_j84035330113648_2_alg».proof.Proof.Gen.KernelIdeal.Frame
import proofs.«167340_j84035330113648_2_alg».proof.Proof.Spec
import proofs.«167340_j84035330113648_2_alg».proof.Proof.KConv
import proofs.«167340_j84035330113648_2_alg».proof.Proof.LibKeepdims
import proofs.«167340_j84035330113648_2_alg».proof.Proof.LibLayout3
import proofs.«167340_j84035330113648_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.TextConv.Kernel

open Idealize.ShloMosaic Idealize.ShloMosaic.ValueIdx Cert.KernelIdeal Cert.KernelIdeal.Gen Cert.TextConv

/-! ## The pieces: loads, layout, the two normalisations, the join, the rows before normalisation -/

namespace Code

/-- The zero offsets of a rank-3 buffer, however spelt. -/
theorem hz3 : (![0, 0, 0] : Fin 3 → Nat) = fun _ => 0 := funext fun a => by fin_cases a <;> rfl

/-- The zero offsets of a rank-2 buffer, however spelt. -/
theorem hz2 : (![0, 0] : Fin 2 → Nat) = fun _ => 0 := funext fun a => by fin_cases a <;> rfl

/-- The load of slab 0 of the 2 filter taps reads the tap array at first coordinate 0. -/
theorem ld_x2_0 (x2 : Vec Ideal S2x768x1024 .bf16) :
    (fun (g : Fin 1024) (d : Fin 768) => View.ld x2 r0_1 (ix3 (0 : Fin 1) d g))
      = fun g d => x2 (ix3 (0 : Fin 2) d g) := by
  funext g d
  show x2 _ = x2 _
  refine congrArg x2 (funext fun a => Fin.ext ?_)
  match a with
  | ⟨0, _⟩ => rfl
  | ⟨1, _⟩ => show 0 + 1 * d.val = d.val; omega
  | ⟨2, _⟩ => show 0 + 1 * g.val = g.val; omega

/-- The load of slab 1 of the 2 filter taps reads the tap array at first coordinate 1. -/
theorem ld_x2_1 (x2 : Vec Ideal S2x768x1024 .bf16) :
    (fun (g : Fin 1024) (d : Fin 768) => View.ld x2 r0_2 (ix3 (0 : Fin 1) d g))
      = fun g d => x2 (ix3 (1 : Fin 2) d g) := by
  funext g d
  show x2 _ = x2 _
  refine congrArg x2 (funext fun a => Fin.ext ?_)
  match a with
  | ⟨0, _⟩ => rfl
  | ⟨1, _⟩ => show 0 + 1 * d.val = d.val; omega
  | ⟨2, _⟩ => show 0 + 1 * g.val = g.val; omega

/-- The load of slab 0 of the 3 filter taps reads the tap array at first coordinate 0. -/
theorem ld_x3_0 (x3 : Vec Ideal S3x768x1024 .bf16) :
    (fun (g : Fin 1024) (d : Fin 768) => View.ld x3 r0_4 (ix3 (0 : Fin 1) d g))
      = fun g d => x3 (ix3 (0 : Fin 3) d g) := by
  funext g d
  show x3 _ = x3 _
  refine congrArg x3 (funext fun a => Fin.ext ?_)
  match a with
  | ⟨0, _⟩ => rfl
  | ⟨1, _⟩ => show 0 + 1 * d.val = d.val; omega
  | ⟨2, _⟩ => show 0 + 1 * g.val = g.val; omega

/-- The load of slab 1 of the 3 filter taps reads the tap array at first coordinate 1. -/
theorem ld_x3_1 (x3 : Vec Ideal S3x768x1024 .bf16) :
    (fun (g : Fin 1024) (d : Fin 768) => View.ld x3 r0_5 (ix3 (0 : Fin 1) d g))
      = fun g d => x3 (ix3 (1 : Fin 3) d g) := by
  funext g d
  show x3 _ = x3 _
  refine congrArg x3 (funext fun a => Fin.ext ?_)
  match a with
  | ⟨0, _⟩ => rfl
  | ⟨1, _⟩ => show 0 + 1 * d.val = d.val; omega
  | ⟨2, _⟩ => show 0 + 1 * g.val = g.val; omega

/-- The load of slab 2 of the 3 filter taps reads the tap array at first coordinate 2. -/
theorem ld_x3_2 (x3 : Vec Ideal S3x768x1024 .bf16) :
    (fun (g : Fin 1024) (d : Fin 768) => View.ld x3 r0_6 (ix3 (0 : Fin 1) d g))
      = fun g d => x3 (ix3 (2 : Fin 3) d g) := by
  funext g d
  show x3 _ = x3 _
  refine congrArg x3 (funext fun a => Fin.ext ?_)
  match a with
  | ⟨0, _⟩ => rfl
  | ⟨1, _⟩ => show 0 + 1 * d.val = d.val; omega
  | ⟨2, _⟩ => show 0 + 1 * g.val = g.val; omega

/-- The load of slab 0 of the 4 filter taps reads the tap array at first coordinate 0. -/
theorem ld_x4_0 (x4 : Vec Ideal S4x768x1024 .bf16) :
    (fun (g : Fin 1024) (d : Fin 768) => View.ld x4 r0_7 (ix3 (0 : Fin 1) d g))
      = fun g d => x4 (ix3 (0 : Fin 4) d g) := by
  funext g d
  show x4 _ = x4 _
  refine congrArg x4 (funext fun a => Fin.ext ?_)
  match a with
  | ⟨0, _⟩ => rfl
  | ⟨1, _⟩ => show 0 + 1 * d.val = d.val; omega
  | ⟨2, _⟩ => show 0 + 1 * g.val = g.val; omega

/-- The load of slab 1 of the 4 filter taps reads the tap array at first coordinate 1. -/
theorem ld_x4_1 (x4 : Vec Ideal S4x768x1024 .bf16) :
    (fun (g : Fin 1024) (d : Fin 768) => View.ld x4 r0_8 (ix3 (0 : Fin 1) d g))
      = fun g d => x4 (ix3 (1 : Fin 4) d g) := by
  funext g d
  show x4 _ = x4 _
  refine congrArg x4 (funext fun a => Fin.ext ?_)
  match a with
  | ⟨0, _⟩ => rfl
  | ⟨1, _⟩ => show 0 + 1 * d.val = d.val; omega
  | ⟨2, _⟩ => show 0 + 1 * g.val = g.val; omega

/-- The load of slab 2 of the 4 filter taps reads the tap array at first coordinate 2. -/
theorem ld_x4_2 (x4 : Vec Ideal S4x768x1024 .bf16) :
    (fun (g : Fin 1024) (d : Fin 768) => View.ld x4 r0_9 (ix3 (0 : Fin 1) d g))
      = fun g d => x4 (ix3 (2 : Fin 4) d g) := by
  funext g d
  show x4 _ = x4 _
  refine congrArg x4 (funext fun a => Fin.ext ?_)
  match a with
  | ⟨0, _⟩ => rfl
  | ⟨1, _⟩ => show 0 + 1 * d.val = d.val; omega
  | ⟨2, _⟩ => show 0 + 1 * g.val = g.val; omega

/-- The load of slab 3 of the 4 filter taps reads the tap array at first coordinate 3. -/
theorem ld_x4_3 (x4 : Vec Ideal S4x768x1024 .bf16) :
    (fun (g : Fin 1024) (d : Fin 768) => View.ld x4 r0_10 (ix3 (0 : Fin 1) d g))
      = fun g d => x4 (ix3 (3 : Fin 4) d g) := by
  funext g d
  show x4 _ = x4 _
  refine congrArg x4 (funext fun a => Fin.ext ?_)
  match a with
  | ⟨0, _⟩ => rfl
  | ⟨1, _⟩ => show 0 + 1 * d.val = d.val; omega
  | ⟨2, _⟩ => show 0 + 1 * g.val = g.val; omega

/-- An [A, 1, C] array cast to [A, C] reads, at (a, c), the operand at (a, u, c), whatever the unit coordinate u. -/
theorem shapeCast_a1c_ac_apply {α : Type} {A C : ℕ} (x : (⟨3, ![A, 1, C]⟩ : Shape).Idx → α)
    (h : (⟨3, ![A, 1, C]⟩ : Shape).ShapeCasts ⟨2, ![A, C]⟩) (a : Fin A) (c : Fin C) (u : Fin 1) :
    shapeCast ⟨2, ![A, C]⟩ x h (ix2 a c) = x (ix3 a u c) :=
  shapeCast_apply x h _ _ (by
    have hu : u.val = 0 := by omega
    rw [Shape.rowMajor_val_three, Shape.rowMajor_val_two]
    show (a.val * 1 + u.val) * C + c.val = a.val * C + c.val
    rw [hu, Nat.mul_one, Nat.add_zero])

/-- An [A, C] array cast to [A, 1, C] reads, at (a, u, c), the operand at (a, c). -/
theorem shapeCast_ac_a1c_apply {α : Type} {A C : ℕ} (x : (⟨2, ![A, C]⟩ : Shape).Idx → α)
    (h : (⟨2, ![A, C]⟩ : Shape).ShapeCasts ⟨3, ![A, 1, C]⟩) (a : Fin A) (c : Fin C) (u : Fin 1) :
    shapeCast ⟨3, ![A, 1, C]⟩ x h (ix3 a u c) = x (ix2 a c) :=
  shapeCast_apply x h _ _ (by
    have hu : u.val = 0 := by omega
    rw [Shape.rowMajor_val_two, Shape.rowMajor_val_three]
    show a.val * C + c.val = (a.val * 1 + u.val) * C + c.val
    rw [hu, Nat.mul_one, Nat.add_zero])

/-- A [4, 1024] array with every row divided by its Euclidean norm clamped below, as the body spells it: the squares,
    their sum along the row kept as a column, the square root, the clamp, the column copied along the row, the quotient. -/
def norm2 (v : FVec Ideal S4x1024 .f32) : FVec Ideal S4x1024 .f32 :=
  divf v (broadcastTo S4x1024
    (maximumf
      (sqrt (shapeCast S4x1 (multiReduction .add [1] S4 (mulf v v) 0x00000000#32 reduces_S4x1024_S4 (.inl rfl) rfl)
        shapeCasts_S4_S4x1))
      (broadcast S4x1 (Scalar.ofBits .f32 0x2B8CBCCC#32)))
    broadcasts_S4x1_S4x1024)

/-- The sum along a row of a [4, 1024] array, at row p, is the sum over the 1024 entries of the row. -/
theorem rowsum2_apply (w : FVec Ideal S4x1024 .f32) (p : Fin 4) :
    multiReduction .add [1] S4 w 0x00000000#32 reduces_S4x1024_S4 (.inl rfl) rfl (ix1 p) = ∑ g : Fin 1024, w (ix2 p g) :=
  (Ideal.multiReduction_add_single w 0x00000000#32 reduces_S4x1024_S4 (.inl rfl) rfl (ix1 p)).trans
    (Finset.sum_congr rfl fun g _ => congrArg w (funext fun a => by
      match a with
      | ⟨0, _⟩ => rfl
      | ⟨1, _⟩ => rfl))

/-- The body's normalisation of a [4, 1024] array, at (p, f), is the specification's normalisation of row p at f. -/
theorem norm2_apply (v : FVec Ideal S4x1024 .f32) (p : Fin 4) (f : Fin 1024) :
    norm2 v (ix2 p f) = l2 (fun g => v (ix2 p g)) f := by
  unfold norm2 l2
  rw [divf_apply, Keepdims.broadcastTo_a1_ab_apply _ broadcasts_S4x1_S4x1024 p f (0 : Fin 1), maximumf_apply]
  show Ideal.div (v (ix2 p f)) (max (Ideal.sqrt (shapeCast S4x1 _ shapeCasts_S4_S4x1 (ix2 p (0 : Fin 1)))) eps) = _
  rw [Keepdims.shapeCast_a_a1_apply _ shapeCasts_S4_S4x1 p (0 : Fin 1), rowsum2_apply]
  rfl

/-- The sum along the last axis of a [4, 124, 1024] array, at (p, l), is the sum over the 1024 entries of that row. -/
theorem rowsum3_apply (w : FVec Ideal S4x124x1024 .f32) (p : Fin 4) (l : Fin 124) :
    multiReduction .add [2] S4x124 w 0x00000000#32 reduces_S4x124x1024_S4x124 (.inl rfl) rfl (ix2 p l)
      = ∑ g : Fin 1024, w (ix3 p l g) :=
  (Ideal.multiReduction_add_single w 0x00000000#32 reduces_S4x124x1024_S4x124 (.inl rfl) rfl (ix2 p l)).trans
    (Finset.sum_congr rfl fun g _ => congrArg w (funext fun a => by
      match a with
      | ⟨0, _⟩ => rfl
      | ⟨1, _⟩ => rfl
      | ⟨2, _⟩ => rfl))

/-- The body's normalisation of a [4, 124, 1024] array, at (p, l, f), is the specification's normalisation of row
    (p, l) at f. -/
theorem norm124_apply (v : FVec Ideal S4x124x1024 .f32) (p : Fin 4) (l : Fin 124) (f : Fin 1024) :
    norm124 v (ix3 p l f) = l2 (fun g => v (ix3 p l g)) f := by
  unfold norm124 l2
  rw [divf_apply, Cert.Layout3.broadcastTo_ab1_abc_apply _ broadcasts_S4x124x1_S4x124x1024 p l f (0 : Fin 1), maximumf_apply]
  show Ideal.div (v (ix3 p l f))
    (max (Ideal.sqrt (shapeCast S4x124x1 _ shapeCasts_S4x124_S4x124x1 (ix3 p l (0 : Fin 1)))) eps) = _
  rw [Cert.Layout3.shapeCast_ab_ab1_apply _ shapeCasts_S4x124_S4x124x1 p l (0 : Fin 1), rowsum3_apply]
  rfl

/-- The join of 124 rows, one row and one row along axis 1, read at a row below 124: the first piece there. -/
theorem join_lo (A : FVec Ideal S4x124x1024 .f32) (B C : FVec Ideal S4x1x1024 .f32) (p : Fin 4) (l : Fin 126) (f : Fin 1024)
    (h : l.val < 124) :
    concatenate S4x126x1024 1 [⟨S4x124x1024, A⟩, ⟨S4x1x1024, B⟩, ⟨S4x1x1024, C⟩]
        concatenates_S4x124x1024_S4x1x1024_S4x1x1024_S4x126x1024_d1 (ix3 p l f)
      = A (ix3 p (⟨l.val, h⟩ : Fin 124) f) := by
  refine concatenate_apply_piece (t := S4x126x1024) (1 : Fin 3) [⟨S4x124x1024, A⟩, ⟨S4x1x1024, B⟩, ⟨S4x1x1024, C⟩]
    concatenates_S4x124x1024_S4x1x1024_S4x1x1024_S4x126x1024_d1 (ix3 p l f) 0 (by show (0 : ℕ) < 3; omega) S4x124x1024 A rfl rfl 0 rfl
    (ix3 p (⟨l.val, h⟩ : Fin 124) f) (fun b hb => ?_) ?_
  · match b with
    | ⟨0, _⟩ => rfl
    | ⟨1, _⟩ => exact absurd rfl hb
    | ⟨2, _⟩ => rfl
  · show 0 + l.val = l.val
    omega

/-- The same join read at row 124: the second piece's one row. -/
theorem join_124 (A : FVec Ideal S4x124x1024 .f32) (B C : FVec Ideal S4x1x1024 .f32) (p : Fin 4) (l : Fin 126) (f : Fin 1024)
    (h : l.val = 124) :
    concatenate S4x126x1024 1 [⟨S4x124x1024, A⟩, ⟨S4x1x1024, B⟩, ⟨S4x1x1024, C⟩]
        concatenates_S4x124x1024_S4x1x1024_S4x1x1024_S4x126x1024_d1 (ix3 p l f)
      = B (ix3 p (0 : Fin 1) f) := by
  refine concatenate_apply_piece (t := S4x126x1024) (1 : Fin 3) [⟨S4x124x1024, A⟩, ⟨S4x1x1024, B⟩, ⟨S4x1x1024, C⟩]
    concatenates_S4x124x1024_S4x1x1024_S4x1x1024_S4x126x1024_d1 (ix3 p l f) 1 (by show (1 : ℕ) < 3; omega) S4x1x1024 B rfl rfl 124 rfl
    (ix3 p (0 : Fin 1) f) (fun b hb => ?_) ?_
  · match b with
    | ⟨0, _⟩ => rfl
    | ⟨1, _⟩ => exact absurd rfl hb
    | ⟨2, _⟩ => rfl
  · show 124 + 0 = l.val
    omega

/-- The same join read at row 125: the third piece's one row. -/
theorem join_125 (A : FVec Ideal S4x124x1024 .f32) (B C : FVec Ideal S4x1x1024 .f32) (p : Fin 4) (l : Fin 126) (f : Fin 1024)
    (h : l.val = 125) :
    concatenate S4x126x1024 1 [⟨S4x124x1024, A⟩, ⟨S4x1x1024, B⟩, ⟨S4x1x1024, C⟩]
        concatenates_S4x124x1024_S4x1x1024_S4x1x1024_S4x126x1024_d1 (ix3 p l f)
      = C (ix3 p (0 : Fin 1) f) := by
  refine concatenate_apply_piece (t := S4x126x1024) (1 : Fin 3) [⟨S4x124x1024, A⟩, ⟨S4x1x1024, B⟩, ⟨S4x1x1024, C⟩]
    concatenates_S4x124x1024_S4x1x1024_S4x1x1024_S4x126x1024_d1 (ix3 p l f) 2 (by show (2 : ℕ) < 3; omega) S4x1x1024 C rfl rfl 125 rfl
    (ix3 p (0 : Fin 1) f) (fun b hb => ?_) ?_
  · match b with
    | ⟨0, _⟩ => rfl
    | ⟨1, _⟩ => exact absurd rfl hb
    | ⟨2, _⟩ => rfl
  · show 125 + 0 = l.val
    omega

/-- The running maximum of the widths 2 and 3 on the first 124 rows, as the body spells it. -/
theorem pay9_eq (v1 : FVec Ideal S4x128x768 .bf16) (v23 : FVec Ideal S4x127x1024 .f32) (v33 : FVec Ideal S4x126x1024 .f32)
    (v35 : FVec Ideal S504x768 .bf16) (v36 v43 : Vec Ideal S1x768x1024 .bf16) (v48 : Vec Ideal S1x1024 .f32) :
    k0_pay9 (F := Ideal) v1 v23 v33 v35 v36 v43 v48
      = maximumf (extractStridedSlice S4x124x1024 ![0, 0, 0] v23 slices_S4x127x1024_o0_0_0_S4x124x1024)
          (extractStridedSlice S4x124x1024 ![0, 0, 0] (k0_pay8 v1 v33 v35 v36 v43 v48) slices_S4x126x1024_o0_0_0_S4x124x1024) :=
  rfl

/-- The maximum of the widths 2 and 3 at row 124, as the body spells it. -/
theorem pay10_eq (v1 : FVec Ideal S4x128x768 .bf16) (v23 : FVec Ideal S4x127x1024 .f32) (v33 : FVec Ideal S4x126x1024 .f32)
    (v35 : FVec Ideal S504x768 .bf16) (v36 v43 : Vec Ideal S1x768x1024 .bf16) (v48 : Vec Ideal S1x1024 .f32) :
    k0_pay10 (F := Ideal) v1 v23 v33 v35 v36 v43 v48
      = maximumf
          (shapeCast S4x1024 (extractStridedSlice S4x1x1024 ![0, 124, 0] v23 slices_S4x127x1024_o0_124_0_S4x1x1024)
            shapeCasts_S4x1x1024_S4x1024)
          (shapeCast S4x1024
            (extractStridedSlice S4x1x1024 ![0, 124, 0] (k0_pay8 v1 v33 v35 v36 v43 v48) slices_S4x126x1024_o0_124_0_S4x1x1024)
            shapeCasts_S4x1x1024_S4x1024) :=
  rfl

/-- Row 125 of the width-2 convolution, as the body spells it. -/
theorem pay5_eq (v0 : Vec Ideal S4x128x768 .f32) (v5 v12 : Vec Ideal S1x768x1024 .bf16) (v17 : Vec Ideal S1x1024 .f32) :
    k0_pay5 (F := Ideal) v0 v5 v12 v17
      = shapeCast S4x1024
          (extractStridedSlice S4x1x1024 ![0, 125, 0] (k0_pay4 v0 v5 v12 v17) slices_S4x127x1024_o0_125_0_S4x1x1024)
          shapeCasts_S4x1x1024_S4x1024 :=
  rfl

section Rows

variable (v0 : Vec Ideal S4x128x768 .f32) (v5 v12 : Vec Ideal S1x768x1024 .bf16) (v17 : Vec Ideal S1x1024 .f32)
  (v29 v36 v43 : Vec Ideal S1x768x1024 .bf16) (v48 : Vec Ideal S1x1024 .f32)
  (v66 v73 v80 v87 : Vec Ideal S1x768x1024 .bf16) (v92 : Vec Ideal S1x1024 .f32)

/-- A row l < 124 before normalisation: the maximum of the three convolutions at row l. -/
theorem rowsLo_apply (p : Fin 4) (l : ℕ) (hl : l < 124) (g : Fin 1024) :
    maximumf (k0_pay9 (F := Ideal) (k0_pay3 v0) (k0_pay4 v0 v5 v12 v17) (k0_pay6 v0 v29) (k0_pay7 v0) v36 v43 v48)
        (extractStridedSlice S4x124x1024 ![0, 0, 0] (conv4val v0 v66 v73 v80 v87 v92) slices_S4x125x1024_o0_0_0_S4x124x1024)
        (ix3 p (⟨l, hl⟩ : Fin 124) g)
      = max (max (conv2 (fun r d => v0 (ix3 p r d)) (fun g d => v5 (ix3 (0 : Fin 1) d g)) (fun g d => v12 (ix3 (0 : Fin 1) d g)) (fun g => v17 (ix2 (0 : Fin 1) g)) l (by omega) g)
              (conv3 (fun r d => v0 (ix3 p r d)) (fun g d => v29 (ix3 (0 : Fin 1) d g)) (fun g d => v36 (ix3 (0 : Fin 1) d g)) (fun g d => v43 (ix3 (0 : Fin 1) d g)) (fun g => v48 (ix2 (0 : Fin 1) g)) l (by omega) g))
          (conv4 (fun r d => v0 (ix3 p r d)) (fun g d => v66 (ix3 (0 : Fin 1) d g)) (fun g d => v73 (ix3 (0 : Fin 1) d g)) (fun g d => v80 (ix3 (0 : Fin 1) d g)) (fun g d => v87 (ix3 (0 : Fin 1) d g)) (fun g => v92 (ix2 (0 : Fin 1) g)) l (by omega) g) := by
  rw [maximumf_apply, pay9_eq, maximumf_apply,
    slice3_axis1_apply 0 (k0_pay4 v0 v5 v12 v17) slices_S4x127x1024_o0_0_0_S4x124x1024 p (⟨l, hl⟩ : Fin 124) g
      (⟨l, by omega⟩ : Fin 127) (Nat.zero_add _).symm,
    slice3_axis1_apply 0 (k0_pay8 (k0_pay3 v0) (k0_pay6 v0 v29) (k0_pay7 v0) v36 v43 v48) slices_S4x126x1024_o0_0_0_S4x124x1024 p (⟨l, hl⟩ : Fin 124) g
      (⟨l, by omega⟩ : Fin 126) (Nat.zero_add _).symm,
    slice3_axis1_apply 0 (conv4val v0 v66 v73 v80 v87 v92) slices_S4x125x1024_o0_0_0_S4x124x1024 p (⟨l, hl⟩ : Fin 124) g
      (⟨l, by omega⟩ : Fin 125) (Nat.zero_add _).symm,
    kconv2, kconv3, kconv4]

/-- Row 124 before normalisation: the maximum of the widths 2 and 3 at row 124. -/
theorem row124_apply (p : Fin 4) (g : Fin 1024) :
    k0_pay10 (F := Ideal) (k0_pay3 v0) (k0_pay4 v0 v5 v12 v17) (k0_pay6 v0 v29) (k0_pay7 v0) v36 v43 v48 (ix2 p g)
      = max (conv2 (fun r d => v0 (ix3 p r d)) (fun g d => v5 (ix3 (0 : Fin 1) d g)) (fun g d => v12 (ix3 (0 : Fin 1) d g)) (fun g => v17 (ix2 (0 : Fin 1) g)) 124 (by omega) g)
          (conv3 (fun r d => v0 (ix3 p r d)) (fun g d => v29 (ix3 (0 : Fin 1) d g)) (fun g d => v36 (ix3 (0 : Fin 1) d g)) (fun g d => v43 (ix3 (0 : Fin 1) d g)) (fun g => v48 (ix2 (0 : Fin 1) g)) 124 (by omega) g) := by
  rw [pay10_eq, maximumf_apply,
    shapeCast_a1c_ac_apply _ shapeCasts_S4x1x1024_S4x1024 p g (0 : Fin 1),
    shapeCast_a1c_ac_apply _ shapeCasts_S4x1x1024_S4x1024 p g (0 : Fin 1),
    slice3_axis1_apply 124 (k0_pay4 v0 v5 v12 v17) slices_S4x127x1024_o0_124_0_S4x1x1024 p (0 : Fin 1) g (⟨124, by omega⟩ : Fin 127) rfl,
    slice3_axis1_apply 124 (k0_pay8 (k0_pay3 v0) (k0_pay6 v0 v29) (k0_pay7 v0) v36 v43 v48) slices_S4x126x1024_o0_124_0_S4x1x1024 p (0 : Fin 1) g (⟨124, by omega⟩ : Fin 126) rfl,
    kconv2, kconv3]

/-- Row 125 before normalisation: the width-2 convolution at row 125. -/
theorem row125_apply (p : Fin 4) (g : Fin 1024) :
    k0_pay5 (F := Ideal) v0 v5 v12 v17 (ix2 p g) = conv2 (fun r d => v0 (ix3 p r d)) (fun g d => v5 (ix3 (0 : Fin 1) d g)) (fun g d => v12 (ix3 (0 : Fin 1) d g)) (fun g => v17 (ix2 (0 : Fin 1) g)) 125 (by omega) g := by
  rw [pay5_eq, shapeCast_a1c_ac_apply _ shapeCasts_S4x1x1024_S4x1024 p g (0 : Fin 1),
    slice3_axis1_apply 125 (k0_pay4 v0 v5 v12 v17) slices_S4x127x1024_o0_125_0_S4x1x1024 p (0 : Fin 1) g (⟨125, by omega⟩ : Fin 127) rfl,
    kconv2]

end Rows

/-- The joined block, as the body spells it: the normalised first 124 rows, the normalised row 124 and the normalised
    row 125, each one-row piece cast to a [4, 1, 1024] slab. -/
theorem pay1_eq (v25 : FVec Ideal S4x1024 .f32) (v108 : FVec Ideal S4x124x1024 .f32) (v62 : FVec Ideal S4x1024 .f32) :
    k0_pay1 (F := Ideal) v25 v108 (k0_pay14 v62) (k0_pay15 v25) k0_pay16
      = concatenate S4x126x1024 1
          [⟨S4x124x1024, v108⟩, ⟨S4x1x1024, shapeCast S4x1x1024 (norm2 v62) shapeCasts_S4x1024_S4x1x1024⟩,
            ⟨S4x1x1024, shapeCast S4x1x1024 (norm2 v25) shapeCasts_S4x1024_S4x1x1024⟩]
          concatenates_S4x124x1024_S4x1x1024_S4x1x1024_S4x126x1024_d1 :=
  rfl

/-- The first output block's payload at (p, l, f), over the loaded word rows, taps and bias rows: row l, filter f of the
    code of sentence p. Each of the three joined pieces is normalised row by row, and a row's norm is a function of that
    row alone, so on every row the entry is the specification's normalisation of the specification's row. -/
theorem code_val (v0 : Vec Ideal S4x128x768 .f32) (v5 v12 : Vec Ideal S1x768x1024 .bf16) (v17 : Vec Ideal S1x1024 .f32)
    (v29 v36 v43 : Vec Ideal S1x768x1024 .bf16) (v48 : Vec Ideal S1x1024 .f32)
    (v66 v73 v80 v87 : Vec Ideal S1x768x1024 .bf16) (v92 : Vec Ideal S1x1024 .f32)
    (p : Fin 4) (l : Fin 126) (f : Fin 1024) :
    k0_pay1 (F := Ideal) (k0_pay5 v0 v5 v12 v17)
        (k0_pay13 (k0_pay3 v0) (k0_pay9 (k0_pay3 v0) (k0_pay4 v0 v5 v12 v17) (k0_pay6 v0 v29) (k0_pay7 v0) v36 v43 v48) (k0_pay11 (k0_pay3 v0) v66 v73) (k0_pay12 (k0_pay3 v0)) v80 v87 v92)
        (k0_pay14 (k0_pay10 (k0_pay3 v0) (k0_pay4 v0 v5 v12 v17) (k0_pay6 v0 v29) (k0_pay7 v0) v36 v43 v48)) (k0_pay15 (k0_pay5 v0 v5 v12 v17)) k0_pay16 (ix3 p l f)
      = codeRow (fun r d => v0 (ix3 p r d)) (fun g d => v5 (ix3 (0 : Fin 1) d g)) (fun g d => v12 (ix3 (0 : Fin 1) d g)) (fun g => v17 (ix2 (0 : Fin 1) g))
          (fun g d => v29 (ix3 (0 : Fin 1) d g)) (fun g d => v36 (ix3 (0 : Fin 1) d g)) (fun g d => v43 (ix3 (0 : Fin 1) d g)) (fun g => v48 (ix2 (0 : Fin 1) g))
          (fun g d => v66 (ix3 (0 : Fin 1) d g)) (fun g d => v73 (ix3 (0 : Fin 1) d g)) (fun g d => v80 (ix3 (0 : Fin 1) d g)) (fun g d => v87 (ix3 (0 : Fin 1) d g)) (fun g => v92 (ix2 (0 : Fin 1) g)) l f := by
  rw [pay1_eq, pay13_eq]
  unfold codeRow
  by_cases h : l.val < 124
  · rw [join_lo _ _ _ p l f h, norm124_apply]
    refine congrArg (fun v => l2 v f) (funext fun g => ?_)
    unfold pre
    rw [dif_pos h]
    exact rowsLo_apply v0 v5 v12 v17 v29 v36 v43 v48 v66 v73 v80 v87 v92 p l.val h g
  · by_cases h4 : l.val = 124
    · rw [join_124 _ _ _ p l f h4, shapeCast_ac_a1c_apply _ shapeCasts_S4x1024_S4x1x1024 p f (0 : Fin 1), norm2_apply]
      refine congrArg (fun v => l2 v f) (funext fun g => ?_)
      unfold pre
      rw [dif_neg h, if_pos h4]
      exact row124_apply v0 v5 v12 v17 v29 v36 v43 v48 p g
    · have h5 : l.val = 125 := by omega
      rw [join_125 _ _ _ p l f h5, shapeCast_ac_a1c_apply _ shapeCasts_S4x1024_S4x1x1024 p f (0 : Fin 1), norm2_apply]
      refine congrArg (fun v => l2 v f) (funext fun g => ?_)
      unfold pre
      rw [dif_neg h, if_neg h4]
      exact row125_apply v0 v5 v12 v17 p g

/-- The sentence head before normalisation, as the body spells it: the block of sentence vectors cast to a [4, 768]
    matrix, its product with the [768, 1024] map into zero, plus the bias row copied over the four rows. -/
def linval (v129 : Vec Ideal S4x1x768 .f32) (v133 : Vec Ideal S768x1024 .bf16) (v136 : Vec Ideal S1x1024 .f32) :
    FVec Ideal S4x1024 .f32 :=
  addf
    (matmul dot_S4x768_S768x1024_S4x1024_1_0_0_1_n_n none
      (truncf .bf16
        (shapeCast S4x768 (shapeCast S4x1x768 v129 shapeCasts_S4x1x768_S4x1x768 : FVec Ideal S4x1x768 .f32)
          shapeCasts_S4x1x768_S4x768)
        bitsLt_bf16_f32)
      (shapeCast S768x1024 v133 shapeCasts_S768x1024_S768x1024 : FVec Ideal S768x1024 .bf16)
      (constant S4x1024 .f32 0x00000000#32))
    (broadcastTo S4x1024 (shapeCast S1x1024 v136 shapeCasts_S1x1024_S1x1024 : FVec Ideal S1x1024 .f32)
      broadcasts_S1x1024_S4x1024)

/-- The second output block's payload is that affine map, normalised row by row, cast to [4, 1, 1024]. -/
theorem pay2_eq (v129 : Vec Ideal S4x1x768 .f32) (v133 : Vec Ideal S768x1024 .bf16) (v136 : Vec Ideal S1x1024 .f32) :
    k0_pay2 (F := Ideal) v129 v133 v136
      = shapeCast S4x1x1024 (norm2 (linval v129 v133 v136)) shapeCasts_S4x1024_S4x1x1024 :=
  rfl

/-- The affine map at (p, g): the inner product of sentence vector p with column g of the map, plus the bias at g. -/
theorem linval_apply (v129 : Vec Ideal S4x1x768 .f32) (v133 : Vec Ideal S768x1024 .bf16) (v136 : Vec Ideal S1x1024 .f32)
    (p : Fin 4) (g : Fin 1024) :
    linval v129 v133 v136 (ix2 p g)
      = lin (fun d => v129 (ix3 p (0 : Fin 1) d)) (fun g d => v133 (ix2 d g)) (fun g => v136 (ix2 (0 : Fin 1) g)) g := by
  unfold linval lin
  simp only [shapeCast_self]
  rw [addf_apply, broadcastTo_1b_ab_apply _ broadcasts_S1x1024_S4x1024 p g]
  refine congrArg (· + v136 (ix2 (0 : Fin 1) g)) ?_
  refine (Cert.MatOps.matmul_plain_zero_apply (M := 4) (K := 768) (N := 1024) (φ₁ := .bf16) (φ₂ := .bf16) none
    (truncf .bf16 (shapeCast S4x768 v129 shapeCasts_S4x1x768_S4x768 : FVec Ideal S4x768 .f32) bitsLt_bf16_f32) v133 p g).trans ?_
  refine Finset.sum_congr rfl fun d _ => ?_
  rw [truncf_apply, shapeCast_a1c_ac_apply _ shapeCasts_S4x1x768_S4x768 p d (0 : Fin 1)]

end Code

/-! ## The two output blocks -/

/-- The first output block at (p, l, f): row l, filter f of the code of sentence p of the block. -/
theorem kernel_code (x0 : Vec Ideal S4x128x768 .f32) (x1 : Vec Ideal S4x1x768 .f32) (x2 : Vec Ideal S2x768x1024 .bf16)
    (x3 : Vec Ideal S3x768x1024 .bf16) (x4 : Vec Ideal S4x768x1024 .bf16) (x5 : Vec Ideal S768x1024 .bf16)
    (x6 x7 x8 x9 : Vec Ideal S1x1024 .f32)
    (p : Fin 4) (l : Fin 126) (f : Fin 1024) :
    out0_10 (F := Ideal) x0 x1 x2 x3 x4 x5 x6 x7 x8 x9 (ix3 p l f)
      = codeRow (fun r d => x0 (ix3 p r d))
          (fun g d => x2 (ix3 (0 : Fin 2) d g)) (fun g d => x2 (ix3 (1 : Fin 2) d g)) (fun g => x6 (ix2 (0 : Fin 1) g))
          (fun g d => x3 (ix3 (0 : Fin 3) d g)) (fun g d => x3 (ix3 (1 : Fin 3) d g)) (fun g d => x3 (ix3 (2 : Fin 3) d g))
          (fun g => x7 (ix2 (0 : Fin 1) g))
          (fun g d => x4 (ix3 (0 : Fin 4) d g)) (fun g d => x4 (ix3 (1 : Fin 4) d g)) (fun g d => x4 (ix3 (2 : Fin 4) d g))
          (fun g d => x4 (ix3 (3 : Fin 4) d g)) (fun g => x8 (ix2 (0 : Fin 1) g)) l f := by
  unfold out0_10
  rw [View.canon_unit_zero Code.hz3]
  simp only [View.ld_unit_zero (S := S4x128x768) Code.hz3, View.ld_unit_zero (S := S1x1024) Code.hz2]
  refine (Code.code_val x0 (View.ld x2 r0_1) (View.ld x2 r0_2) x6 (View.ld x3 r0_4) (View.ld x3 r0_5) (View.ld x3 r0_6) x7
    (View.ld x4 r0_7) (View.ld x4 r0_8) (View.ld x4 r0_9) (View.ld x4 r0_10) x8 p l f).trans ?_
  rw [Code.ld_x2_0, Code.ld_x2_1, Code.ld_x3_0, Code.ld_x3_1, Code.ld_x3_2, Code.ld_x4_0, Code.ld_x4_1, Code.ld_x4_2, Code.ld_x4_3]

/-- The second output block at (p, u, f): the sentence head of sentence p of the block at filter f. -/
theorem kernel_sent (x0 : Vec Ideal S4x128x768 .f32) (x1 : Vec Ideal S4x1x768 .f32) (x2 : Vec Ideal S2x768x1024 .bf16)
    (x3 : Vec Ideal S3x768x1024 .bf16) (x4 : Vec Ideal S4x768x1024 .bf16) (x5 : Vec Ideal S768x1024 .bf16)
    (x6 x7 x8 x9 : Vec Ideal S1x1024 .f32)
    (p : Fin 4) (u : Fin 1) (f : Fin 1024) :
    out0_11 (F := Ideal) x0 x1 x2 x3 x4 x5 x6 x7 x8 x9 (ix3 p u f)
      = sentRow (fun d => x1 (ix3 p (0 : Fin 1) d)) (fun g d => x5 (ix2 d g)) (fun g => x9 (ix2 (0 : Fin 1) g)) f := by
  unfold out0_11
  rw [View.canon_unit_zero Code.hz3]
  simp only [View.ld_unit_zero (S := S4x1x768) Code.hz3, View.ld_unit_zero (S := S768x1024) Code.hz2,
    View.ld_unit_zero (S := S1x1024) Code.hz2]
  rw [Code.pay2_eq, Code.shapeCast_ac_a1c_apply _ shapeCasts_S4x1024_S4x1x1024 p f u, Code.norm2_apply]
  unfold sentRow
  exact congrArg (fun v => l2 v f) (funext fun g => Code.linval_apply x1 x5 x9 p g)

end Cert.TextConv.Kernel

end
-- ==== Proof.Final.lean ====
/-
  The two output arrays after the region, and the program's two results after the lines that follow it.

  At grid point t the body leaves in the first output window's buffer the code of sentences 4t .. 4t+3 and in the
  second their heads: block t of the whole-batch arrays. The 32 blocks tile the batch axis, so after the run the two
  arrays hold the whole-batch code and heads. The lines after the region swap the code's last two axes and drop the
  heads' unit axis.
-/
import proofs.«167340_j84035330113648_2_alg».proof.Proof.Gen.KernelIdeal.Frame
import proofs.«167340_j84035330113648_2_alg».proof.Proof.Blocks
import proofs.«167340_j84035330113648_2_alg».proof.Proof.KCode
import proofs.«167340_j84035330113648_2_alg».proof.Proof.SpecArr
import Idealize.ShloMosaic.Lib.StableHlo.Run
import Idealize.ShloMosaic.Lib.ValueIdx
import Idealize.ShloMosaic.Lib.ValueLayout
import Idealize.ShloMosaic.Lib.Pipeline.Value

noncomputable section

namespace Cert.TextConv.Glue

open Idealize.ShloMosaic Idealize.ShloMosaic.TcCoe Idealize.ShloMosaic.ValueIdx Idealize.SL.Sem Cert.KernelIdeal Cert.KernelIdeal.Gen
open Cert.TextConv Cert.TextConv.Kernel

variable (m : (ℓ : Loc nD τ sig) → Buf (Elt Ideal) ℓ) (ρ : Dev nD → PrngReg)

/-! ## What point t writes back -/

/-- Block t of the first output array: the code of the block's four sentences. -/
theorem flushed10_eq (c : Dev nD) (t : Fin cfg0.N) :
    (dats m 0 c).flushed 10 t = ((cfg0.win 10).blk t).view.read (Elt Ideal) (codeArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 10).cut (grid0.coords t) ((dats m 0 c).after 10 t) = _
  rw [after0_10]
  funext y
  obtain ⟨p, l, f, rfl⟩ : ∃ (p : Fin 4) (l : Fin 126) (f : Fin 1024), (y : S4x126x1024.Idx) = ix3 p l f :=
    ⟨y 0, y 1, y 2, eq_ix3 (n0 := 4) (n1 := 126) (n2 := 1024) y⟩
  obtain ⟨-, -, -, -, -, -, -, -, -, -, ⟨e0, e1, e2⟩, -⟩ := idx_facts t
  have hemb : ((cfg0.win 10).blk t).view.emb (ix3 p l f) = (ix3 (sentence t p) l f : S128x126x1024.Idx) := by
    funext a; apply Fin.ext
    match a with
    | ⟨0, _⟩ => show win0_10.index t (0 : Fin 3) * 4 + 1 * p.val = 4 * t.val + p.val; omega
    | ⟨1, _⟩ => show win0_10.index t (1 : Fin 3) * 126 + 1 * l.val = l.val; omega
    | ⟨2, _⟩ => show win0_10.index t (2 : Fin 3) * 1024 + 1 * f.val = f.val; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 p l f)
    = codeArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb (ix3 p l f))
  rw [hemb]
  refine (kernel_code (iblk m c 0 t) (iblk m c 1 t) (iblk m c 2 t) (iblk m c 3 t) (iblk m c 4 t) (iblk m c 5 t) (iblk m c 6 t) (iblk m c 7 t) (iblk m c 8 t) (iblk m c 9 t) p l f).trans ?_
  show _ = codeAt (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (sentence t p) l f
  unfold codeAt
  simp only [blk0_apply m c t, blk2_apply m c t, blk3_apply m c t, blk4_apply m c t, blk6_apply m c t, blk7_apply m c t, blk8_apply m c t]

/-- Block t of the second output array: the heads of the block's four sentences. -/
theorem flushed11_eq (c : Dev nD) (t : Fin cfg0.N) :
    (dats m 0 c).flushed 11 t = ((cfg0.win 11).blk t).view.read (Elt Ideal) (sentBlockArr (m ((c : Thread nD τ).loc main_arg1)) (m ((c : Thread nD τ).loc main_arg8)) (m ((c : Thread nD τ).loc main_arg9))) := by
  show (cfg0.win 11).cut (grid0.coords t) ((dats m 0 c).after 11 t) = _
  rw [after0_11]
  funext y
  obtain ⟨p, u, f, rfl⟩ : ∃ (p : Fin 4) (u : Fin 1) (f : Fin 1024), (y : S4x1x1024.Idx) = ix3 p u f :=
    ⟨y 0, y 1, y 2, eq_ix3 (n0 := 4) (n1 := 1) (n2 := 1024) y⟩
  obtain ⟨-, -, -, -, -, -, -, -, -, -, -, ⟨e0, e1, e2⟩⟩ := idx_facts t
  have hemb : ((cfg0.win 11).blk t).view.emb (ix3 p u f) = (ix3 (sentence t p) u f : S128x1x1024.Idx) := by
    funext a; apply Fin.ext
    match a with
    | ⟨0, _⟩ => show win0_11.index t (0 : Fin 3) * 4 + 1 * p.val = 4 * t.val + p.val; omega
    | ⟨1, _⟩ => show win0_11.index t (1 : Fin 3) * 1 + 1 * u.val = u.val; omega
    | ⟨2, _⟩ => show win0_11.index t (2 : Fin 3) * 1024 + 1 * f.val = f.val; omega
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix3 p u f)
    = sentBlockArr (m ((c : Thread nD τ).loc main_arg1)) (m ((c : Thread nD τ).loc main_arg8)) (m ((c : Thread nD τ).loc main_arg9)) (((cfg0.win 11).blk t).view.emb (ix3 p u f))
  rw [hemb]
  refine (kernel_sent (iblk m c 0 t) (iblk m c 1 t) (iblk m c 2 t) (iblk m c 3 t) (iblk m c 4 t) (iblk m c 5 t) (iblk m c 6 t) (iblk m c 7 t) (iblk m c 8 t) (iblk m c 9 t) p u f).trans ?_
  show _ = sentAt (m ((c : Thread nD τ).loc main_arg1)) (m ((c : Thread nD τ).loc main_arg8)) (m ((c : Thread nD τ).loc main_arg9)) (sentence t p) f
  unfold sentAt
  simp only [blk1_apply m c t, blk5_apply m c t, blk9_apply m c t]

/-! ## The blocks tile the batch axis -/

theorem mem_blk10 (t : Fin cfg0.N) (i : S128x126x1024.Idx) :
    i ∈ ((cfg0.win 10).blk t).view.set ↔ ∀ a : Fin 3, win0_10.index t a * S4x126x1024.size a ≤ (i a).val ∧ (i a).val < win0_10.index t a * S4x126x1024.size a + S4x126x1024.size a := by
  show i ∈ ((View.whole main_v13_0).slice (win0_10.rect t)).set ↔ _
  rw [View.set_slice_whole, Rect.mem_set_unit]
  exact Iff.rfl

theorem mem_blk11 (t : Fin cfg0.N) (i : S128x1x1024.Idx) :
    i ∈ ((cfg0.win 11).blk t).view.set ↔ ∀ a : Fin 3, win0_11.index t a * S4x1x1024.size a ≤ (i a).val ∧ (i a).val < win0_11.index t a * S4x1x1024.size a + S4x1x1024.size a := by
  show i ∈ ((View.whole main_v13_1).slice (win0_11.rect t)).set ↔ _
  rw [View.set_slice_whole, Rect.mem_set_unit]
  exact Iff.rfl

/-- The point whose block holds sentence b. -/
def pointOf (b : ℕ) (hb : b < 128) : Fin cfg0.N := ⟨b / 4, lt_of_lt_of_eq (by omega : b / 4 < 32) N_0.symm⟩

theorem cover10 (i : S128x126x1024.Idx) : ∃ t : Fin cfg0.N, (cfg0.win 10).flush t = true ∧ i ∈ ((cfg0.win 10).blk t).view.set := by
  have h0 : (i 0).val < 128 := (i 0).isLt
  have h1 : (i 1).val < 126 := (i 1).isLt
  have h2 : (i 2).val < 1024 := (i 2).isLt
  refine ⟨pointOf (i 0).val h0, flush0_10 _, ?_⟩
  rw [mem_blk10]
  obtain ⟨-, -, -, -, -, -, -, -, -, -, ⟨e0, e1, e2⟩, -⟩ := idx_facts (pointOf (i 0).val h0)
  have ht : (pointOf (i 0).val h0).val = (i 0).val / 4 := rfl
  intro a
  match a with
  | ⟨0, _⟩ => show win0_10.index _ (0 : Fin 3) * 4 ≤ (i 0).val ∧ (i 0).val < win0_10.index _ (0 : Fin 3) * 4 + 4; omega
  | ⟨1, _⟩ => show win0_10.index _ (1 : Fin 3) * 126 ≤ (i 1).val ∧ (i 1).val < win0_10.index _ (1 : Fin 3) * 126 + 126; omega
  | ⟨2, _⟩ => show win0_10.index _ (2 : Fin 3) * 1024 ≤ (i 2).val ∧ (i 2).val < win0_10.index _ (2 : Fin 3) * 1024 + 1024; omega

theorem cover11 (i : S128x1x1024.Idx) : ∃ t : Fin cfg0.N, (cfg0.win 11).flush t = true ∧ i ∈ ((cfg0.win 11).blk t).view.set := by
  have h0 : (i 0).val < 128 := (i 0).isLt
  have h1 : (i 1).val < 1 := (i 1).isLt
  have h2 : (i 2).val < 1024 := (i 2).isLt
  refine ⟨pointOf (i 0).val h0, flush0_11 _, ?_⟩
  rw [mem_blk11]
  obtain ⟨-, -, -, -, -, -, -, -, -, -, -, ⟨e0, e1, e2⟩⟩ := idx_facts (pointOf (i 0).val h0)
  have ht : (pointOf (i 0).val h0).val = (i 0).val / 4 := rfl
  intro a
  match a with
  | ⟨0, _⟩ => show win0_11.index _ (0 : Fin 3) * 4 ≤ (i 0).val ∧ (i 0).val < win0_11.index _ (0 : Fin 3) * 4 + 4; omega
  | ⟨1, _⟩ => show win0_11.index _ (1 : Fin 3) * 1 ≤ (i 1).val ∧ (i 1).val < win0_11.index _ (1 : Fin 3) * 1 + 1; omega
  | ⟨2, _⟩ => show win0_11.index _ (2 : Fin 3) * 1024 ≤ (i 2).val ∧ (i 2).val < win0_11.index _ (2 : Fin 3) * 1024 + 1024; omega

/-! ## The arrays after the region -/

theorem final10 (c : Dev nD) : (dats m 0 c).arrAt 10 cfg0.N = codeArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 _ (fun t _ => flushed10_eq m c t) cover10

theorem final11 (c : Dev nD) : (dats m 0 c).arrAt 11 cfg0.N = sentBlockArr (m ((c : Thread nD τ).loc main_arg1)) (m ((c : Thread nD τ).loc main_arg8)) (m ((c : Thread nD τ).loc main_arg9)) :=
  (dats m 0 c).arrAt_eq_of_cover 11 _ (fun t _ => flushed11_eq m c t) cover11

end Cert.TextConv.Glue

end
-- ==== Proof.Tail.lean ====
/-
  The kernel program's run, read: its two results and its unchanged arguments.

  After the region the program swaps the last two axes of the code array and drops the unit axis of the heads array.
  So its first result at (b, f, l) is row l, filter f of the code of sentence b, and its second at (b, f) the head of
  sentence b at filter f.
-/
import proofs.«167340_j84035330113648_2_alg».proof.Proof.Gen.KernelIdeal.Frame
import proofs.«167340_j84035330113648_2_alg».proof.Proof.Final
import proofs.«167340_j84035330113648_2_alg».proof.Proof.SpecArr
import Idealize.ShloMosaic.Lib.StableHlo.Run
import Idealize.ShloMosaic.Lib.ValueIdx
import Idealize.ShloMosaic.Lib.ValueLayout
import Idealize.ShloMosaic.Lib.Pipeline.Value

noncomputable section

namespace Cert.TextConv.Glue

open Idealize.ShloMosaic Idealize.ShloMosaic.TcCoe Idealize.ShloMosaic.ValueIdx Idealize.SL.Sem Cert.KernelIdeal Cert.KernelIdeal.Gen
open Cert.TextConv

variable (m : (ℓ : Loc nD τ sig) → Buf (Elt Ideal) ℓ) (ρ : Dev nD → PrngReg)

/-- An [A, 1, D] array cast to [A, D] reads, at (a, d), the operand at (a, 0, d). -/
theorem shapeCast_a1d_ad_apply {α : Type} {A D : ℕ} (x : (⟨3, ![A, 1, D]⟩ : Shape).Idx → α)
    (h : (⟨3, ![A, 1, D]⟩ : Shape).ShapeCasts ⟨2, ![A, D]⟩) (a : Fin A) (d : Fin D) :
    shapeCast ⟨2, ![A, D]⟩ x h (ix2 a d) = x (ix3 a (0 : Fin 1) d) :=
  shapeCast_apply x h _ _ (by
    rw [Shape.rowMajor_val_three, Shape.rowMajor_val_two]
    show (a.val * 1 + 0) * D + d.val = a.val * D + d.val
    rw [Nat.mul_one, Nat.add_zero])

/-- The first result: the code with its last two axes swapped. -/
theorem tail_words (c : Dev nD) :
    Pipeline.afterTail₀ cfgs (dats m) 0 (V0 m) [hostOps1] c main_v15 = wordsOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v15) = _
  after_results
  have hA : Pipeline.withArrays (cfgs 0).spec c (V0 m c) (fun w => (dats m 0 c).arrAt w (cfgs 0).N) (Proc.devRef .tc main_v13_0)
      = codeArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (Pipeline.withArrays_arr spec0 launch0.win.arr_inj c _ _ 10).trans (final10 m c)
  rw [hA]
  funext i
  obtain ⟨b, f, l, rfl⟩ : ∃ (b : Fin 128) (f : Fin 1024) (l : Fin 126), i = ix3 b f l := ⟨i 0, i 1, i 2, eq_ix3 i⟩
  exact transpose_ix3_021_apply _ transposes_S128x126x1024_S128x1024x126_0_2_1 b f l

/-- The second result: the heads with their unit axis dropped. -/
theorem tail_sent (c : Dev nD) :
    Pipeline.afterTail₀ cfgs (dats m) 0 (V0 m) [hostOps1] c main_v14 = sentOut (m ((c : Thread nD τ).loc main_arg1)) (m ((c : Thread nD τ).loc main_arg8)) (m ((c : Thread nD τ).loc main_arg9)) := by
  have e : Pipeline.afterTail₀ cfgs (dats m) 0 (V0 m) [hostOps1] c main_v14
      = shapeCast S128x1024 (Pipeline.withArrays (cfgs 0).spec c (V0 m c) (fun w => (dats m 0 c).arrAt w (cfgs 0).N) (Proc.devRef .tc main_v13_1))
          shapeCasts_S128x1x1024_S128x1024 := by
    unfold Pipeline.afterTail₀
    show StableHlo.after hostOps1 _ (Proc.devRef .tc main_v14) = _
    after_results
    rfl
  have hA : Pipeline.withArrays (cfgs 0).spec c (V0 m c) (fun w => (dats m 0 c).arrAt w (cfgs 0).N) (Proc.devRef .tc main_v13_1)
      = sentBlockArr (m ((c : Thread nD τ).loc main_arg1)) (m ((c : Thread nD τ).loc main_arg8)) (m ((c : Thread nD τ).loc main_arg9)) :=
    (Pipeline.withArrays_arr spec0 launch0.win.arr_inj c _ _ 11).trans (final11 m c)
  rw [e, hA]
  funext i
  obtain ⟨b, f, rfl⟩ : ∃ (b : Fin 128) (f : Fin 1024), i = ix2 b f := ⟨i 0, i 1, eq_ix2 i⟩
  exact shapeCast_a1d_ad_apply _ shapeCasts_S128x1x1024_S128x1024 b f

-- definitions in a metavariable's type
set_option backward.isDefEq.respectTransparency.types false in
/-- The kernel program's run: every weakly fair execution terminates with the two results at the specification's
    arrays of the arguments, the arguments unchanged. -/
theorem run : θ_run defs (onTc (τ := τ) (main (F := Ideal))) ⟨m, fun _ => 0, ρ⟩ (fun r => ∀ c : Dev nD,
      r.2.mem ((c.tc : Thread nD τ).loc main_v15) = wordsOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v14) = sentOut (m ((c : Thread nD τ).loc main_arg1)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v15 (Pipeline.mem_restRefs_of main_v15 (by decide) (by decide))).trans (tail_words m c),
      ((h c).2 main_v14 (Pipeline.mem_restRefs_of main_v14 (by decide) (by decide))).trans (tail_sent m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.TextConv.Glue

end
-- ==== Proof.RefConv.lean ====
/-
  The reference's three convolutions and its sentence head, read at an index.

  The reference slices the word rows and one tap of the filters, contracts them over the 768 coordinates with a general
  dot, adds the taps to a zero array one after the other, adds the bias and clamps below at 0. At (b, l, f) that is the
  specification's convolution for sentence b. The sentence head is a plain matrix product against the transposed weight
  matrix, the bias, and the row normalisation.

  Every proof has the same three steps. First the index equations: the row slice that starts at row s reads word row
  s + l, the slice of tap t followed by the reshape [1024,1,768] -> [1024,768] reads filter f, tap t, coordinate k
  (the reshape's row-major arithmetic (f * 768 + k) / 768 = f and (f * 768 + k) % 768 = k, for k < 768), and the two
  broadcasts of the bias read filter f. Then each stage is read at an index from its operands, outermost first. Last,
  the zero word is the number 0, 0 + x = x, and the two sides are the same expression: the reference adds its taps in
  the specification's order, so no rearrangement of the sum is needed.
-/
import proofs.«167340_j84035330113648_2_alg».proof.Proof.Gen.ReferenceIdeal.Read
import proofs.«167340_j84035330113648_2_alg».proof.Proof.Spec
import Idealize.ShloMosaic.Lib.ValueIdx
import Idealize.ShloMosaic.Lib.Pipeline.Value
import Idealize.ShloMosaic.PureOps.Ideal.Laws

open scoped BigOperators

noncomputable section

namespace Cert.TextConv.Ref

open Idealize.ShloMosaic Idealize.ShloMosaic.ValueIdx Cert.ReferenceIdeal Cert.ReferenceIdeal.Read Cert.TextConv

/-- The reference's width-2 convolution (after the clamp) at (b, l, f). -/
theorem rconv2 (x0 : (⟨S128x128x768, .f32⟩ : BufTy).Contents (Elt Ideal)) (x2 : (⟨S1024x2x768, .f32⟩ : BufTy).Contents (Elt Ideal)) (x3 : (⟨S1024, .f32⟩ : BufTy).Contents (Elt Ideal))
    (b : Fin 128) (l : ℕ) (hl : l < 127) (f : Fin 1024) :
    val_main_v27 (F := Ideal) x0 x2 x3 (ix3 b (⟨l, hl⟩ : Fin 127) f)
      = conv2 (fun r d => x0 (ix3 b r d)) (fun g d => x2 (ix3 g (0 : Fin 2) d)) (fun g d => x2 (ix3 g (1 : Fin 2) d))
          (fun g => x3 (ix1 g)) l hl f := by
  -- the word rows l, l + 1 of sentence b, taps 0, 1 of filter f (through the reshape's row-major arithmetic), the bias of f
  have eL0 : ∀ k : Fin 768, idx_main_v13 (lidx_main_v16 (ix3 b (⟨l, hl⟩ : Fin 127) f) k)
      = ix3 b (⟨l, by omega⟩ : Fin 128) k := fun k => funext fun a => Fin.ext (by
    match a with
    | ⟨0, _⟩ => rfl
    | ⟨1, _⟩ => rfl
    | ⟨2, _⟩ => rfl)
  have eR0 : ∀ k : Fin 768, idx_main_v14 (idx_main_v15 (ridx_main_v16 (ix3 b (⟨l, hl⟩ : Fin 127) f) k))
      = ix3 f (0 : Fin 2) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eL1 : ∀ k : Fin 768, idx_main_v19 (lidx_main_v22 (ix3 b (⟨l, hl⟩ : Fin 127) f) k)
      = ix3 b (⟨l + 1, by omega⟩ : Fin 128) k := fun k => funext fun a => Fin.ext (by
    match a with
    | ⟨0, _⟩ => rfl
    | ⟨1, _⟩ => show 1 + l = l + 1; omega
    | ⟨2, _⟩ => rfl)
  have eR1 : ∀ k : Fin 768, idx_main_v20 (idx_main_v21 (ridx_main_v22 (ix3 b (⟨l, hl⟩ : Fin 127) f) k))
      = ix3 f (1 : Fin 2) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eB : idx_main_v24 (idx_main_v25 (ix3 b (⟨l, hl⟩ : Fin 127) f)) = ix1 f := funext fun a => Fin.ext (by
    match a with
    | ⟨0, _⟩ => rfl)
  have hz : (FloatOps.ofBits FTy.f32 0x00000000#32 : Ideal .f32) = 0 := Ideal.ofBits_zero_f32
  unfold conv2 tap
  rw [val_main_v27_apply, val_main_v26_apply, val_main_v23_apply, val_main_v18_apply, val_main_v17_apply, val_main_cst_1_apply,
    val_main_v16_apply, val_main_v22_apply, val_main_v25_apply, val_main_v24_apply, val_main_call0_v0_apply, val_main_call0_cst_apply]
  simp only [val_main_v13_apply, val_main_v15_apply, val_main_v14_apply, val_main_v19_apply, val_main_v21_apply, val_main_v20_apply,
    Ideal.maximumf_def, Ideal.addf_def, eL0, eR0, eL1, eR1, eB, hz, zero_add]

/-- The reference's width-3 convolution at (b, l, f). -/
theorem rconv3 (x0 : (⟨S128x128x768, .f32⟩ : BufTy).Contents (Elt Ideal)) (x4 : (⟨S1024x3x768, .f32⟩ : BufTy).Contents (Elt Ideal)) (x5 : (⟨S1024, .f32⟩ : BufTy).Contents (Elt Ideal))
    (b : Fin 128) (l : ℕ) (hl : l < 126) (f : Fin 1024) :
    val_main_v47 (F := Ideal) x0 x4 x5 (ix3 b (⟨l, hl⟩ : Fin 126) f)
      = conv3 (fun r d => x0 (ix3 b r d)) (fun g d => x4 (ix3 g (0 : Fin 3) d)) (fun g d => x4 (ix3 g (1 : Fin 3) d))
          (fun g d => x4 (ix3 g (2 : Fin 3) d)) (fun g => x5 (ix1 g)) l hl f := by
  -- the word rows l, l + 1, l + 2 of sentence b
  have eL0 : ∀ k : Fin 768, idx_main_v28 (lidx_main_v31 (ix3 b (⟨l, hl⟩ : Fin 126) f) k)
      = ix3 b (⟨l, by omega⟩ : Fin 128) k := fun k => funext fun a => Fin.ext (by
    match a with
    | ⟨0, _⟩ => rfl
    | ⟨1, _⟩ => rfl
    | ⟨2, _⟩ => rfl)
  have eL1 : ∀ k : Fin 768, idx_main_v34 (lidx_main_v37 (ix3 b (⟨l, hl⟩ : Fin 126) f) k)
      = ix3 b (⟨l + 1, by omega⟩ : Fin 128) k := fun k => funext fun a => Fin.ext (by
    match a with
    | ⟨0, _⟩ => rfl
    | ⟨1, _⟩ => show 1 + l = l + 1; omega
    | ⟨2, _⟩ => rfl)
  have eL2 : ∀ k : Fin 768, idx_main_v39 (lidx_main_v42 (ix3 b (⟨l, hl⟩ : Fin 126) f) k)
      = ix3 b (⟨l + 2, by omega⟩ : Fin 128) k := fun k => funext fun a => Fin.ext (by
    match a with
    | ⟨0, _⟩ => rfl
    | ⟨1, _⟩ => show 2 + l = l + 2; omega
    | ⟨2, _⟩ => rfl)
  -- taps 0, 1, 2 of filter f, through the reshape's row-major arithmetic
  have eR0 : ∀ k : Fin 768, idx_main_v29 (idx_main_v30 (ridx_main_v31 (ix3 b (⟨l, hl⟩ : Fin 126) f) k))
      = ix3 f (0 : Fin 3) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eR1 : ∀ k : Fin 768, idx_main_v35 (idx_main_v36 (ridx_main_v37 (ix3 b (⟨l, hl⟩ : Fin 126) f) k))
      = ix3 f (1 : Fin 3) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eR2 : ∀ k : Fin 768, idx_main_v40 (idx_main_v41 (ridx_main_v42 (ix3 b (⟨l, hl⟩ : Fin 126) f) k))
      = ix3 f (2 : Fin 3) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  -- the bias of filter f
  have eB : idx_main_v44 (idx_main_v45 (ix3 b (⟨l, hl⟩ : Fin 126) f)) = ix1 f := funext fun a => Fin.ext (by
    match a with
    | ⟨0, _⟩ => rfl)
  have hz : (FloatOps.ofBits FTy.f32 0x00000000#32 : Ideal .f32) = 0 := Ideal.ofBits_zero_f32
  unfold conv3 tap
  rw [val_main_v47_apply, val_main_v46_apply, val_main_v43_apply, val_main_v38_apply, val_main_v33_apply, val_main_v32_apply,
    val_main_cst_2_apply, val_main_v31_apply, val_main_v37_apply, val_main_v42_apply, val_main_v45_apply, val_main_v44_apply,
    val_main_call1_v0_apply, val_main_call1_cst_apply]
  simp only [val_main_v28_apply, val_main_v30_apply, val_main_v29_apply, val_main_v34_apply, val_main_v36_apply, val_main_v35_apply,
    val_main_v39_apply, val_main_v41_apply, val_main_v40_apply,
    Ideal.maximumf_def, Ideal.addf_def, eL0, eR0, eL1, eR1, eL2, eR2, eB, hz, zero_add]

/-- The reference's width-4 convolution at (b, l, f). -/
theorem rconv4 (x0 : (⟨S128x128x768, .f32⟩ : BufTy).Contents (Elt Ideal)) (x6 : (⟨S1024x4x768, .f32⟩ : BufTy).Contents (Elt Ideal)) (x7 : (⟨S1024, .f32⟩ : BufTy).Contents (Elt Ideal))
    (b : Fin 128) (l : ℕ) (hl : l < 125) (f : Fin 1024) :
    val_main_v72 (F := Ideal) x0 x6 x7 (ix3 b (⟨l, hl⟩ : Fin 125) f)
      = conv4 (fun r d => x0 (ix3 b r d)) (fun g d => x6 (ix3 g (0 : Fin 4) d)) (fun g d => x6 (ix3 g (1 : Fin 4) d))
          (fun g d => x6 (ix3 g (2 : Fin 4) d)) (fun g d => x6 (ix3 g (3 : Fin 4) d)) (fun g => x7 (ix1 g)) l hl f := by
  -- the word rows l, l + 1, l + 2, l + 3 of sentence b
  have eL0 : ∀ k : Fin 768, idx_main_v48 (lidx_main_v51 (ix3 b (⟨l, hl⟩ : Fin 125) f) k)
      = ix3 b (⟨l, by omega⟩ : Fin 128) k := fun k => funext fun a => Fin.ext (by
    match a with
    | ⟨0, _⟩ => rfl
    | ⟨1, _⟩ => rfl
    | ⟨2, _⟩ => rfl)
  have eL1 : ∀ k : Fin 768, idx_main_v54 (lidx_main_v57 (ix3 b (⟨l, hl⟩ : Fin 125) f) k)
      = ix3 b (⟨l + 1, by omega⟩ : Fin 128) k := fun k => funext fun a => Fin.ext (by
    match a with
    | ⟨0, _⟩ => rfl
    | ⟨1, _⟩ => show 1 + l = l + 1; omega
    | ⟨2, _⟩ => rfl)
  have eL2 : ∀ k : Fin 768, idx_main_v59 (lidx_main_v62 (ix3 b (⟨l, hl⟩ : Fin 125) f) k)
      = ix3 b (⟨l + 2, by omega⟩ : Fin 128) k := fun k => funext fun a => Fin.ext (by
    match a with
    | ⟨0, _⟩ => rfl
    | ⟨1, _⟩ => show 2 + l = l + 2; omega
    | ⟨2, _⟩ => rfl)
  have eL3 : ∀ k : Fin 768, idx_main_v64 (lidx_main_v67 (ix3 b (⟨l, hl⟩ : Fin 125) f) k)
      = ix3 b (⟨l + 3, by omega⟩ : Fin 128) k := fun k => funext fun a => Fin.ext (by
    match a with
    | ⟨0, _⟩ => rfl
    | ⟨1, _⟩ => show 3 + l = l + 3; omega
    | ⟨2, _⟩ => rfl)
  -- taps 0, 1, 2, 3 of filter f, through the reshape's row-major arithmetic
  have eR0 : ∀ k : Fin 768, idx_main_v49 (idx_main_v50 (ridx_main_v51 (ix3 b (⟨l, hl⟩ : Fin 125) f) k))
      = ix3 f (0 : Fin 4) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eR1 : ∀ k : Fin 768, idx_main_v55 (idx_main_v56 (ridx_main_v57 (ix3 b (⟨l, hl⟩ : Fin 125) f) k))
      = ix3 f (1 : Fin 4) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eR2 : ∀ k : Fin 768, idx_main_v60 (idx_main_v61 (ridx_main_v62 (ix3 b (⟨l, hl⟩ : Fin 125) f) k))
      = ix3 f (2 : Fin 4) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  have eR3 : ∀ k : Fin 768, idx_main_v65 (idx_main_v66 (ridx_main_v67 (ix3 b (⟨l, hl⟩ : Fin 125) f) k))
      = ix3 f (3 : Fin 4) k := fun k => funext fun a => Fin.ext (by
    have hf : f.val < 1024 := f.isLt
    have hk : k.val < 768 := k.isLt
    match a with
    | ⟨0, _⟩ => show (f.val * 768 + k.val) / 768 = f.val; omega
    | ⟨1, _⟩ => rfl
    | ⟨2, _⟩ => show (f.val * 768 + k.val) % 768 = k.val; omega)
  -- the bias of filter f
  have eB : idx_main_v69 (idx_main_v70 (ix3 b (⟨l, hl⟩ : Fin 125) f)) = ix1 f := funext fun a => Fin.ext (by
    match a with
    | ⟨0, _⟩ => rfl)
  have hz : (FloatOps.ofBits FTy.f32 0x00000000#32 : Ideal .f32) = 0 := Ideal.ofBits_zero_f32
  unfold conv4 tap
  rw [val_main_v72_apply, val_main_v71_apply, val_main_v68_apply, val_main_v63_apply, val_main_v58_apply, val_main_v53_apply,
    val_main_v52_apply, val_main_cst_3_apply, val_main_v51_apply, val_main_v57_apply, val_main_v62_apply, val_main_v67_apply,
    val_main_v70_apply, val_main_v69_apply, val_main_call2_v0_apply, val_main_call2_cst_apply]
  simp only [val_main_v48_apply, val_main_v50_apply, val_main_v49_apply, val_main_v54_apply, val_main_v56_apply, val_main_v55_apply,
    val_main_v59_apply, val_main_v61_apply, val_main_v60_apply, val_main_v64_apply, val_main_v66_apply, val_main_v65_apply,
    Ideal.maximumf_def, Ideal.addf_def, eL0, eR0, eL1, eR1, eL2, eR2, eL3, eR3, eB, hz, zero_add]

/-- The affine map under the sentence head at (b, g): the matrix product against the transposed weights reads row g
of the weight matrix, and the two broadcasts of the bias read entry g. -/
private theorem sent_lin (x1 : (⟨S128x768, .f32⟩ : BufTy).Contents (Elt Ideal)) (x8 : (⟨S1024x768, .f32⟩ : BufTy).Contents (Elt Ideal)) (x9 : (⟨S1024, .f32⟩ : BufTy).Contents (Elt Ideal))
    (b : Fin 128) (g : Fin 1024) :
    val_main_v4 (F := Ideal) x1 x8 x9 (ix2 b g)
      = lin (fun d => x1 (ix2 b d)) (fun h d => x8 (ix2 h d)) (fun h => x9 (ix1 h)) g := by
  have eL : ∀ k : Fin 768, lidx_main_v1 (ix2 b g) k = ix2 b k := fun k => funext fun a => Fin.ext (by
    match a with
    | ⟨0, _⟩ => rfl
    | ⟨1, _⟩ => rfl)
  have eR : ∀ k : Fin 768, idx_main_v0 (ridx_main_v1 (ix2 b g) k) = ix2 g k := fun k => funext fun a => Fin.ext (by
    match a with
    | ⟨0, _⟩ => rfl
    | ⟨1, _⟩ => rfl)
  have eB : idx_main_v2 (idx_main_v3 (ix2 b g)) = ix1 g := funext fun a => Fin.ext (by
    match a with
    | ⟨0, _⟩ => rfl)
  unfold lin
  rw [val_main_v4_apply, val_main_v1_apply, val_main_v3_apply, val_main_v2_apply]
  simp only [val_main_v0_apply, Ideal.addf_def, eL, eR, eB]

/-- The reference's sentence head at (b, f). -/
theorem ref_sent (x1 : (⟨S128x768, .f32⟩ : BufTy).Contents (Elt Ideal)) (x8 : (⟨S1024x768, .f32⟩ : BufTy).Contents (Elt Ideal)) (x9 : (⟨S1024, .f32⟩ : BufTy).Contents (Elt Ideal))
    (b : Fin 128) (f : Fin 1024) :
    val_main_v12 (F := Ideal) x1 x8 x9 (ix2 b f)
      = sentRow (fun d => x1 (ix2 b d)) (fun g d => x8 (ix2 g d)) (fun g => x9 (ix1 g)) f := by
  -- the sum of squares under the norm runs over row b
  have eS : ∀ k : Fin 1024, idx_main_v6 (idx_main_v7 (idx_main_v11 (ix2 b f))) k = ix2 b k := fun k => funext fun a => Fin.ext (by
    match a with
    | ⟨0, _⟩ => rfl
    | ⟨1, _⟩ => rfl)
  have hz : (FloatOps.ofBits FTy.f32 0x00000000#32 : Ideal .f32) = 0 := Ideal.ofBits_zero_f32
  unfold sentRow l2 eps
  rw [val_main_v12_apply, val_main_v11_apply, val_main_v10_apply, val_main_v8_apply, val_main_v7_apply, val_main_v6_apply,
    val_main_cst_apply, val_main_v9_apply, val_main_cst_0_apply]
  simp only [val_main_v5_apply, Ideal.hostDivf_def, Ideal.maximumf_def, Ideal.hostUnary_sqrt_def, Ideal.mulf_def, eS, hz, zero_add,
    sent_lin]
  rfl

end Cert.TextConv.Ref

end
-- ==== Proof.RefCode.lean ====
/-
  The reference's word code, read at an index.

  The reference takes the first 124 rows of the pointwise maximum of the three convolutions, row 124 of the maximum of
  the widths 2 and 3, and row 125 of the width 2, joins them along the row axis, divides every row by its clamped
  Euclidean norm and swaps the last two axes. At (b, f, l) that is row l, filter f of the specification's code of
  sentence b.
-/
import proofs.«167340_j84035330113648_2_alg».proof.Proof.Gen.ReferenceIdeal.Read
import proofs.«167340_j84035330113648_2_alg».proof.Proof.Spec
import proofs.«167340_j84035330113648_2_alg».proof.Proof.RefConv
import Idealize.ShloMosaic.Lib.ValueIdx
import Idealize.ShloMosaic.Lib.Pipeline.Value
import Idealize.ShloMosaic.PureOps.Ideal.Laws

open scoped BigOperators

noncomputable section

namespace Cert.TextConv.Ref

open Idealize.ShloMosaic Idealize.ShloMosaic.ValueIdx Cert.ReferenceIdeal Cert.ReferenceIdeal.Read Cert.TextConv

/-! ## Where each piece of the joined array reads the convolutions -/

/-- A row below 124 of a width-2 slice is the same row of the width-2 convolution. -/
theorem idx_low2 (b : Fin 128) (l : ℕ) (h : l < 124) (f : Fin 1024) :
    idx_main_v73 (ix3 b (⟨l, h⟩ : Fin 124) f) = ix3 b (⟨l, by omega⟩ : Fin 127) f :=
  funext fun a => Fin.ext (by match a with | ⟨0, _⟩ => rfl | ⟨1, _⟩ => rfl | ⟨2, _⟩ => rfl)

/-- A row below 124 of a width-3 slice is the same row of the width-3 convolution. -/
theorem idx_low3 (b : Fin 128) (l : ℕ) (h : l < 124) (f : Fin 1024) :
    idx_main_v74 (ix3 b (⟨l, h⟩ : Fin 124) f) = ix3 b (⟨l, by omega⟩ : Fin 126) f :=
  funext fun a => Fin.ext (by match a with | ⟨0, _⟩ => rfl | ⟨1, _⟩ => rfl | ⟨2, _⟩ => rfl)

/-- A row below 124 of a width-4 slice is the same row of the width-4 convolution. -/
theorem idx_low4 (b : Fin 128) (l : ℕ) (h : l < 124) (f : Fin 1024) :
    idx_main_v76 (ix3 b (⟨l, h⟩ : Fin 124) f) = ix3 b (⟨l, by omega⟩ : Fin 125) f :=
  funext fun a => Fin.ext (by match a with | ⟨0, _⟩ => rfl | ⟨1, _⟩ => rfl | ⟨2, _⟩ => rfl)

/-- The one-row piece for row 124, flattened to [128, 1024] and spread again, reads row 124 of the width-2 convolution. -/
theorem idx_row124_2 (b : Fin 128) (f : Fin 1024) :
    idx_main_v78 (idx_main_v79 (ix2 b f)) = ix3 b (⟨124, by omega⟩ : Fin 127) f :=
  funext fun a => Fin.ext (by
    have hf : f.val < 1024 := f.isLt
    match a with
    | ⟨0, _⟩ => show (b.val * 1024 + f.val) / 1024 = b.val; omega
    | ⟨1, _⟩ => rfl
    | ⟨2, _⟩ => show (b.val * 1024 + f.val) % 1024 = f.val; omega)

/-- The same piece reads row 124 of the width-3 convolution. -/
theorem idx_row124_3 (b : Fin 128) (f : Fin 1024) :
    idx_main_v80 (idx_main_v81 (ix2 b f)) = ix3 b (⟨124, by omega⟩ : Fin 126) f :=
  funext fun a => Fin.ext (by
    have hf : f.val < 1024 := f.isLt
    match a with
    | ⟨0, _⟩ => show (b.val * 1024 + f.val) / 1024 = b.val; omega
    | ⟨1, _⟩ => rfl
    | ⟨2, _⟩ => show (b.val * 1024 + f.val) % 1024 = f.val; omega)

/-- The one-row piece for row 125 reads row 125 of the width-2 convolution. -/
theorem idx_row125 (b : Fin 128) (f : Fin 1024) :
    idx_main_v84 (idx_main_v85 (ix2 b f)) = ix3 b (⟨125, by omega⟩ : Fin 127) f :=
  funext fun a => Fin.ext (by
    have hf : f.val < 1024 := f.isLt
    match a with
    | ⟨0, _⟩ => show (b.val * 1024 + f.val) / 1024 = b.val; omega
    | ⟨1, _⟩ => rfl
    | ⟨2, _⟩ => show (b.val * 1024 + f.val) % 1024 = f.val; omega)

/-- A one-row piece [128, 1, 1024] is the spread of a [128, 1024] array: its element at (b, 0, f) is that array's at (b, f). -/
theorem idx_spread (b : Fin 128) (f : Fin 1024) :
    idx_main_v83 (ix3 b (0 : Fin 1) f) = ix2 b f :=
  funext fun a => Fin.ext (by match a with | ⟨0, _⟩ => rfl | ⟨1, _⟩ => rfl)

/-- The same for the row-125 piece. -/
theorem idx_spread' (b : Fin 128) (f : Fin 1024) :
    idx_main_v86 (ix3 b (0 : Fin 1) f) = ix2 b f :=
  funext fun a => Fin.ext (by match a with | ⟨0, _⟩ => rfl | ⟨1, _⟩ => rfl)

/-! ## The three pieces at an index -/

/-- The first piece (rows 0..123): the maximum of the three convolutions. -/
theorem piece_low (x0 : (⟨S128x128x768, .f32⟩ : BufTy).Contents (Elt Ideal)) (x2 : (⟨S1024x2x768, .f32⟩ : BufTy).Contents (Elt Ideal)) (x3 : (⟨S1024, .f32⟩ : BufTy).Contents (Elt Ideal))
    (x4 : (⟨S1024x3x768, .f32⟩ : BufTy).Contents (Elt Ideal)) (x5 : (⟨S1024, .f32⟩ : BufTy).Contents (Elt Ideal)) (x6 : (⟨S1024x4x768, .f32⟩ : BufTy).Contents (Elt Ideal)) (x7 : (⟨S1024, .f32⟩ : BufTy).Contents (Elt Ideal))
    (b : Fin 128) (l : ℕ) (h : l < 124) (f : Fin 1024) :
    val_main_v77 (F := Ideal) x0 x2 x3 x4 x5 x6 x7 (ix3 b (⟨l, h⟩ : Fin 124) f)
      = max (max (conv2 (fun r d => x0 (ix3 b r d)) (fun g d => x2 (ix3 g (0 : Fin 2) d)) (fun g d => x2 (ix3 g (1 : Fin 2) d))
                  (fun g => x3 (ix1 g)) l (by omega) f)
                (conv3 (fun r d => x0 (ix3 b r d)) (fun g d => x4 (ix3 g (0 : Fin 3) d)) (fun g d => x4 (ix3 g (1 : Fin 3) d))
                  (fun g d => x4 (ix3 g (2 : Fin 3) d)) (fun g => x5 (ix1 g)) l (by omega) f))
          (conv4 (fun r d => x0 (ix3 b r d)) (fun g d => x6 (ix3 g (0 : Fin 4) d)) (fun g d => x6 (ix3 g (1 : Fin 4) d))
            (fun g d => x6 (ix3 g (2 : Fin 4) d)) (fun g d => x6 (ix3 g (3 : Fin 4) d)) (fun g => x7 (ix1 g)) l (by omega) f) := by
  rw [val_main_v77_apply, val_main_v75_apply, val_main_v73_apply, val_main_v74_apply, val_main_v76_apply,
    idx_low2, idx_low3, idx_low4, rconv2, rconv3, rconv4]
  rfl

/-- The second piece (row 124): the maximum of the widths 2 and 3 at row 124. -/
theorem piece_124 (x0 : (⟨S128x128x768, .f32⟩ : BufTy).Contents (Elt Ideal)) (x2 : (⟨S1024x2x768, .f32⟩ : BufTy).Contents (Elt Ideal)) (x3 : (⟨S1024, .f32⟩ : BufTy).Contents (Elt Ideal))
    (x4 : (⟨S1024x3x768, .f32⟩ : BufTy).Contents (Elt Ideal)) (x5 : (⟨S1024, .f32⟩ : BufTy).Contents (Elt Ideal)) (b : Fin 128) (f : Fin 1024) :
    val_main_v83 (F := Ideal) x0 x2 x3 x4 x5 (ix3 b (0 : Fin 1) f)
      = max (conv2 (fun r d => x0 (ix3 b r d)) (fun g d => x2 (ix3 g (0 : Fin 2) d)) (fun g d => x2 (ix3 g (1 : Fin 2) d))
              (fun g => x3 (ix1 g)) 124 (by omega) f)
            (conv3 (fun r d => x0 (ix3 b r d)) (fun g d => x4 (ix3 g (0 : Fin 3) d)) (fun g d => x4 (ix3 g (1 : Fin 3) d))
              (fun g d => x4 (ix3 g (2 : Fin 3) d)) (fun g => x5 (ix1 g)) 124 (by omega) f) := by
  rw [val_main_v83_apply, idx_spread, val_main_v82_apply, val_main_v79_apply, val_main_v78_apply, val_main_v81_apply,
    val_main_v80_apply, idx_row124_2, idx_row124_3, rconv2, rconv3]
  rfl

/-- The third piece (row 125): the width-2 convolution at row 125. -/
theorem piece_125 (x0 : (⟨S128x128x768, .f32⟩ : BufTy).Contents (Elt Ideal)) (x2 : (⟨S1024x2x768, .f32⟩ : BufTy).Contents (Elt Ideal)) (x3 : (⟨S1024, .f32⟩ : BufTy).Contents (Elt Ideal)) (b : Fin 128) (f : Fin 1024) :
    val_main_v86 (F := Ideal) x0 x2 x3 (ix3 b (0 : Fin 1) f)
      = conv2 (fun r d => x0 (ix3 b r d)) (fun g d => x2 (ix3 g (0 : Fin 2) d)) (fun g d => x2 (ix3 g (1 : Fin 2) d))
              (fun g => x3 (ix1 g)) 125 (by omega) f := by
  rw [val_main_v86_apply, idx_spread', val_main_v85_apply, val_main_v84_apply, idx_row125, rconv2]

/-! ## The joined array at an index -/

/-- The concatenation along the row axis of 124 rows, one row and one row, read at (b, l, f): row l of the specification's code
    before normalisation. Rows below 124 fall in the first piece, row 124 in the second, row 125 in the third. -/
theorem pre_eq (x0 : (⟨S128x128x768, .f32⟩ : BufTy).Contents (Elt Ideal)) (x2 : (⟨S1024x2x768, .f32⟩ : BufTy).Contents (Elt Ideal)) (x3 : (⟨S1024, .f32⟩ : BufTy).Contents (Elt Ideal))
    (x4 : (⟨S1024x3x768, .f32⟩ : BufTy).Contents (Elt Ideal)) (x5 : (⟨S1024, .f32⟩ : BufTy).Contents (Elt Ideal)) (x6 : (⟨S1024x4x768, .f32⟩ : BufTy).Contents (Elt Ideal)) (x7 : (⟨S1024, .f32⟩ : BufTy).Contents (Elt Ideal))
    (b : Fin 128) (l : Fin 126) (f : Fin 1024) :
    val_main_v87 (F := Ideal) x0 x2 x3 x4 x5 x6 x7 (ix3 b l f)
      = pre (fun r d => x0 (ix3 b r d))
          (fun g d => x2 (ix3 g (0 : Fin 2) d)) (fun g d => x2 (ix3 g (1 : Fin 2) d)) (fun g => x3 (ix1 g))
          (fun g d => x4 (ix3 g (0 : Fin 3) d)) (fun g d => x4 (ix3 g (1 : Fin 3) d)) (fun g d => x4 (ix3 g (2 : Fin 3) d))
          (fun g => x5 (ix1 g))
          (fun g d => x6 (ix3 g (0 : Fin 4) d)) (fun g d => x6 (ix3 g (1 : Fin 4) d)) (fun g d => x6 (ix3 g (2 : Fin 4) d))
          (fun g d => x6 (ix3 g (3 : Fin 4) d)) (fun g => x7 (ix1 g)) l f := by
  have hl : l.val < 126 := l.isLt
  unfold val_main_v87 pre
  by_cases h1 : l.val < 124
  · rw [dif_pos h1]
    refine (concatenate_apply_piece (1 : Fin S128x126x1024.rank) _ _ (ix3 b l f) 0 (by show (0 : ℕ) < 3; omega) S128x124x1024 _ rfl rfl 0 rfl
      (ix3 b (⟨l.val, h1⟩ : Fin 124) f)
      (fun c hc => by match c with | ⟨0, _⟩ => rfl | ⟨1, _⟩ => exact absurd rfl hc | ⟨2, _⟩ => rfl)
      (by show 0 + l.val = l.val; omega)).trans ?_
    exact piece_low x0 x2 x3 x4 x5 x6 x7 b l.val h1 f
  · rw [dif_neg h1]
    by_cases h2 : l.val = 124
    · rw [if_pos h2]
      refine (concatenate_apply_piece (1 : Fin S128x126x1024.rank) _ _ (ix3 b l f) 1 (by show (1 : ℕ) < 3; omega) S128x1x1024 _ rfl rfl 124 rfl
        (ix3 b (0 : Fin 1) f)
        (fun c hc => by match c with | ⟨0, _⟩ => rfl | ⟨1, _⟩ => exact absurd rfl hc | ⟨2, _⟩ => rfl)
        (by show 124 + 0 = l.val; omega)).trans ?_
      exact piece_124 x0 x2 x3 x4 x5 b f
    · rw [if_neg h2]
      refine (concatenate_apply_piece (1 : Fin S128x126x1024.rank) _ _ (ix3 b l f) 2 (by show (2 : ℕ) < 3; omega) S128x1x1024 _ rfl rfl 125 rfl
        (ix3 b (0 : Fin 1) f)
        (fun c hc => by match c with | ⟨0, _⟩ => rfl | ⟨1, _⟩ => exact absurd rfl hc | ⟨2, _⟩ => rfl)
        (by show 125 + 0 = l.val; omega)).trans ?_
      exact piece_125 x0 x2 x3 b f

/-- The reference's first result at (b, f, l). -/
theorem ref_code (x0 : (⟨S128x128x768, .f32⟩ : BufTy).Contents (Elt Ideal)) (x2 : (⟨S1024x2x768, .f32⟩ : BufTy).Contents (Elt Ideal)) (x3 : (⟨S1024, .f32⟩ : BufTy).Contents (Elt Ideal))
    (x4 : (⟨S1024x3x768, .f32⟩ : BufTy).Contents (Elt Ideal)) (x5 : (⟨S1024, .f32⟩ : BufTy).Contents (Elt Ideal)) (x6 : (⟨S1024x4x768, .f32⟩ : BufTy).Contents (Elt Ideal)) (x7 : (⟨S1024, .f32⟩ : BufTy).Contents (Elt Ideal))
    (b : Fin 128) (f : Fin 1024) (l : Fin 126) :
    val_main_v96 (F := Ideal) x0 x2 x3 x4 x5 x6 x7 (ix3 b f l)
      = codeRow (fun r d => x0 (ix3 b r d))
          (fun g d => x2 (ix3 g (0 : Fin 2) d)) (fun g d => x2 (ix3 g (1 : Fin 2) d)) (fun g => x3 (ix1 g))
          (fun g d => x4 (ix3 g (0 : Fin 3) d)) (fun g d => x4 (ix3 g (1 : Fin 3) d)) (fun g d => x4 (ix3 g (2 : Fin 3) d))
          (fun g => x5 (ix1 g))
          (fun g d => x6 (ix3 g (0 : Fin 4) d)) (fun g d => x6 (ix3 g (1 : Fin 4) d)) (fun g d => x6 (ix3 g (2 : Fin 4) d))
          (fun g d => x6 (ix3 g (3 : Fin 4) d)) (fun g => x7 (ix1 g)) l f := by
  unfold codeRow l2 eps
  rw [val_main_v96_apply, val_main_v95_apply, val_main_v94_apply, val_main_v93_apply, val_main_v91_apply,
    val_main_v90_apply, val_main_v89_apply, val_main_v92_apply, val_main_cst_5_apply, val_main_cst_4_apply]
  -- the swap of the last two axes, and the row of squares the norm sums over
  have e96 : idx_main_v96 (ix3 b f l) = ix3 b l f :=
    funext fun a => Fin.ext (by match a with | ⟨0, _⟩ => rfl | ⟨1, _⟩ => rfl | ⟨2, _⟩ => rfl)
  have e89 : ∀ k : Fin 1024, idx_main_v89 (idx_main_v90 (idx_main_v94 (ix3 b l f))) k = ix3 b l k := fun k =>
    funext fun a => Fin.ext (by match a with | ⟨0, _⟩ => rfl | ⟨1, _⟩ => rfl | ⟨2, _⟩ => rfl)
  rw [e96, pre_eq]
  -- the sum of squares starts from the zero word, which is 0; each square is a product of two equal entries of the row
  refine congrArg₂ Ideal.div rfl (congrArg₂ max (congrArg Ideal.sqrt ?_) rfl)
  rw [Ideal.ofBits_def, Ideal.ofBits_zero_f32, zero_add]
  refine Finset.sum_congr rfl fun k _ => ?_
  rw [e89 k, val_main_v88_apply, pre_eq]
  rfl

end Cert.TextConv.Ref

end
-- ==== Proof.lean ====
/-
  A text-convolution encoder as a pipelined kernel against its plain array reference, on the extended reals.

  For each of 128 sentences (128 word rows of 768 coordinates) both programs compute three 1-D convolutions of widths
  2, 3 and 4 into 1024 filters, each with a bias and clamped below at 0; take the pointwise maximum of the three on rows
  0..123, of the widths 2 and 3 on row 124, and the width 2 alone on row 125; divide each of the 126 rows by its
  Euclidean norm over the filters, clamped below at a small constant; and return the result with rows and filters
  swapped, together with a sentence head (an affine map of a sentence vector, normalised the same way).

  The kernel works on blocks of four sentences: it multiplies the block's shifted word rows, cast to a matrix, by each
  filter tap (the banks transposed beforehand so that a tap is a 768 × 1024 matrix), normalises the three pieces of the
  code separately and joins them. The reference slices, contracts with a general dot, joins the pieces and normalises
  once. On the extended reals a matrix product into a zero accumulator and a general dot are the same sum over the 768
  coordinates, the two programs add the taps in the same order, a format change is the identity, and a row's norm only
  depends on that row; so both end at one function of the arguments (`Cert.TextConv.wordsOut`, `sentOut`), entry by
  entry. No law that needs finiteness is used: the precondition is never opened.

  The kernel's run is read off its frame: each input block at a grid point is the matching slab of its argument, what
  a point writes back is its block of the whole-batch arrays, the 32 blocks tile the batch, and the two lines after the
  region swap two axes and drop a unit axis. The reference's run is read one operation at a time.
-/
import proofs.«167340_j84035330113648_2_alg».proof.Defs
import proofs.«167340_j84035330113648_2_alg».proof.Proof.Gen.Kernel
import proofs.«167340_j84035330113648_2_alg».proof.Proof.Gen.Kernel.Frame
import proofs.«167340_j84035330113648_2_alg».proof.Proof.Gen.KernelIdeal
import proofs.«167340_j84035330113648_2_alg».proof.Proof.Gen.KernelIdeal.Frame
import proofs.«167340_j84035330113648_2_alg».proof.Proof.Gen.ReferenceIdeal
import proofs.«167340_j84035330113648_2_alg».proof.Proof.Gen.ReferenceIdeal.Run
import proofs.«167340_j84035330113648_2_alg».proof.Proof.Gen.ReferenceIdeal.Read
import proofs.«167340_j84035330113648_2_alg».proof.Proof.Gen.Pre_finite_inputs
import proofs.«167340_j84035330113648_2_alg».proof.Proof.SpecArr
import proofs.«167340_j84035330113648_2_alg».proof.Proof.Tail
import proofs.«167340_j84035330113648_2_alg».proof.Proof.RefConv
import proofs.«167340_j84035330113648_2_alg».proof.Proof.RefCode
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments. -/
theorem frame_kernel [Cert.Kernel.Facts] [Cert.Pre_finite_inputs.Facts] : Cert.frame_Kernel :=
  fun m ρ _ => Cert.Kernel.Gen.frame m ρ

/-- The idealized kernel runs and keeps its arguments. -/
theorem frame_kernelIdeal [Cert.KernelIdeal.Facts] [Cert.Pre_finite_inputs.Facts] : Cert.frame_KernelIdeal :=
  fun m ρ _ => Cert.KernelIdeal.Gen.frame m ρ

/-- The idealized reference runs and keeps its arguments: its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The idealization rewrote nothing, so there is nothing to preserve. -/
theorem preserves : Cert.preserves_Kernel_KernelIdeal := trivial

/-- From memories agreeing on the arguments the two idealized programs end with equal results: the kernel's run ends at
    the specification's arrays of its arguments, the reference's at the same arrays of its own, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.TextConv.wordsOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.TextConv.sentOut (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.TextConv.Glue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v96_eq, h0, h2, h3, h4, h5, h6, h7]
    funext i
    obtain ⟨b, f, l, rfl⟩ : ∃ (b : Fin 128) (f : Fin 1024) (l : Fin 126), i = ix3 b f l := ⟨i 0, i 1, i 2, eq_ix3 i⟩
    exact Cert.TextConv.Ref.ref_code _ _ _ _ _ _ _ b f l
  · obtain ⟨h0, h1, h2, h3, h4, h5, h6, h7, h8, h9⟩ := hagree c
    rw [Cert.ReferenceIdeal.Read.val_main_v12_eq, h1, h8, h9]
    funext i
    obtain ⟨b, f, rfl⟩ : ∃ (b : Fin 128) (f : Fin 1024), i = ix2 b f := ⟨i 0, i 1, eq_ix2 i⟩
    exact Cert.TextConv.Ref.ref_sent _ _ _ b f

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
